-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 162
  | .vmem => 26
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S50000, .i32⟩
  | 15 => ⟨S650000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S50000x128, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000x128, .f32⟩
  | 60 => ⟨S650000x1, .f32⟩
  | 61 => ⟨S650000x128, .f32⟩
  | 62 => ⟨S650000x128, .f32⟩
  | 63 => ⟨S_, .f32⟩
  | 64 => ⟨S50000x128, .f32⟩
  | 65 => ⟨S650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S50000x128, .f32⟩
  | 88 => ⟨S50000, .i32⟩
  | 89 => ⟨S650000, .i32⟩
  | 90 => ⟨S650000, .i32⟩
  | 91 => ⟨S_, .f32⟩
  | 92 => ⟨S650000, .f32⟩
  | 93 => ⟨S_, .f32⟩
  | 94 => ⟨S50000, .f32⟩
  | 95 => ⟨S650000x1, .i32⟩
  | 96 => ⟨S50000, .f32⟩
  | 97 => ⟨S_, .f32⟩
  | 98 => ⟨S50000, .f32⟩
  | 99 => ⟨S50000, .i1⟩
  | 100 => ⟨S50000, .f32⟩
  | 101 => ⟨S_, .f32⟩
  | 102 => ⟨S_, .f32⟩
  | 103 => ⟨S50000, .f32⟩
  | 104 => ⟨S50000, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000, .f32⟩
  | 123 => ⟨S650000, .f32⟩
  | 124 => ⟨S50000x128, .f32⟩
  | 125 => ⟨S_, .i32⟩
  | 126 => ⟨S650000, .i32⟩
  | 127 => ⟨S650000, .i1⟩
  | _ => ⟨S50000x128, .f32⟩

abbrev hbmTy0_1 (i : Nat) : BufTy := match i % 128 with
  | 0 => ⟨S_, .i32⟩
  | 1 => ⟨S650000, .i32⟩
  | 2 => ⟨S650000, .i32⟩
  | 3 => ⟨S650000, .i32⟩
  | 4 => ⟨S650000x1, .i32⟩
  | 5 => ⟨S650000x128, .f32⟩
  | 6 => ⟨S650000x1, .f32⟩
  | 7 => ⟨S650000x128, .f32⟩
  | 8 => ⟨S650000x128, .f32⟩
  | 9 => ⟨S_, .f32⟩
  | 10 => ⟨S50000x128, .f32⟩
  | 11 => ⟨S650000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_call1_v0 : Ref sig .tc := ⟨.hbm, 102, rfl⟩
abbrev main_call1_v1 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_21 : Ref sig .tc := ⟨.hbm, 125, rfl⟩
abbrev main_v88 : Ref sig .tc := ⟨.hbm, 126, rfl⟩
abbrev main_v89 : Ref sig .tc := ⟨.hbm, 127, rfl⟩
abbrev main_c_22 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_23 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_26 : Ref sig .tc := ⟨.hbm, 153, rfl⟩
abbrev main_v111 : Ref sig .tc := ⟨.hbm, 154, rfl⟩
abbrev main_v112 : Ref sig .tc := ⟨.hbm, 155, rfl⟩
abbrev main_cst_27 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v103) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v107) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v114) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S50000, .i32⟩
  | 15 => ⟨S650000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S50000x128, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000x128, .f32⟩
  | 60 => ⟨S650000x1, .f32⟩
  | 61 => ⟨S650000x128, .f32⟩
  | 62 => ⟨S650000x128, .f32⟩
  | 63 => ⟨S_, .f32⟩
  | 64 => ⟨S50000x128, .f32⟩
  | 65 => ⟨S650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .i1⟩
  | 103 => ⟨S_, .f32⟩
  | 104 => ⟨S50000x128, .f32⟩
  | 105 => ⟨S50000x128, .i1⟩
  | 106 => ⟨S_, .f32⟩
  | 107 => ⟨S_, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S50000, .i32⟩
  | 116 => ⟨S650000, .i32⟩
  | 117 => ⟨S650000, .i32⟩
  | 118 => ⟨S_, .f32⟩
  | 119 => ⟨S650000, .f32⟩
  | 120 => ⟨S_, .f32⟩
  | 121 => ⟨S50000, .f32⟩
  | 122 => ⟨S650000x1, .i32⟩
  | 123 => ⟨S50000, .f32⟩
  | 124 => ⟨S_, .f32⟩
  | 125 => ⟨S50000, .f32⟩
  | 126 => ⟨S50000, .i1⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S650000, .i32⟩
  | 6 => ⟨S650000, .i1⟩
  | 7 => ⟨S_, .i32⟩
  | 8 => ⟨S650000, .i32⟩
  | 9 => ⟨S650000, .i32⟩
  | 10 => ⟨S650000, .i32⟩
  | 11 => ⟨S650000x1, .i32⟩
  | 12 => ⟨S650000, .f32⟩
  | 13 => ⟨S_, .i32⟩
  | 14 => ⟨S650000, .i32⟩
  | 15 => ⟨S650000, .i1⟩
  | 16 => ⟨S_, .i32⟩
  | 17 => ⟨S650000, .i32⟩
  | 18 => ⟨S650000, .i32⟩
  | 19 => ⟨S650000, .i32⟩
  | 20 => ⟨S650000x1, .i32⟩
  | 21 => ⟨S650000, .f32⟩
  | 22 => ⟨S650000, .f32⟩
  | 23 => ⟨S50000x128, .f32⟩
  | 24 => ⟨S_, .i32⟩
  | 25 => ⟨S650000, .i32⟩
  | 26 => ⟨S650000, .i1⟩
  | 27 => ⟨S_, .i32⟩
  | 28 => ⟨S650000, .i32⟩
  | 29 => ⟨S650000, .i32⟩
  | 30 => ⟨S650000, .i32⟩
  | 31 => ⟨S650000x1, .i32⟩
  | 32 => ⟨S650000x128, .f32⟩
  | 33 => ⟨S650000x1, .f32⟩
  | 34 => ⟨S650000x128, .f32⟩
  | 35 => ⟨S650000x128, .f32⟩
  | 36 => ⟨S_, .f32⟩
  | 37 => ⟨S50000x128, .f32⟩
  | 38 => ⟨S650000x1, .i32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .i1⟩
  | 79 => ⟨S_, .f32⟩
  | 80 => ⟨S_, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_cst_1 : Ref sig .tc := ⟨.hbm, 106, rfl⟩
abbrev main_call1_call0_v0 : Ref sig .tc := ⟨.hbm, 107, rfl⟩
abbrev main_call1_call0_v1 : Ref sig .tc := ⟨.hbm, 108, rfl⟩
abbrev main_call1_v4 : Ref sig .tc := ⟨.hbm, 109, rfl⟩
abbrev main_call1_v5 : Ref sig .tc := ⟨.hbm, 110, rfl⟩
abbrev main_call1_cst_2 : Ref sig .tc := ⟨.hbm, 111, rfl⟩
abbrev main_call1_v6 : Ref sig .tc := ⟨.hbm, 112, rfl⟩
abbrev main_call1_v7 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_14 : Ref sig .tc := ⟨.hbm, 118, rfl⟩
abbrev main_v76 : Ref sig .tc := ⟨.hbm, 119, rfl⟩
abbrev main_cst_15 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_17 : Ref sig .tc := ⟨.hbm, 128, rfl⟩
abbrev main_call2_v0 : Ref sig .tc := ⟨.hbm, 129, rfl⟩
abbrev main_call2_v1 : Ref sig .tc := ⟨.hbm, 130, rfl⟩
abbrev main_v83 : Ref sig .tc := ⟨.hbm, 131, rfl⟩
abbrev main_c_18 : Ref sig .tc := ⟨.hbm, 132, rfl⟩
abbrev main_v84 : Ref sig .tc := ⟨.hbm, 133, rfl⟩
abbrev main_v85 : Ref sig .tc := ⟨.hbm, 134, rfl⟩
abbrev main_c_19 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_20 : Ref sig .tc := ⟨.hbm, 141, rfl⟩
abbrev main_v91 : Ref sig .tc := ⟨.hbm, 142, rfl⟩
abbrev main_v92 : Ref sig .tc := ⟨.hbm, 143, rfl⟩
abbrev main_c_21 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_c_22 : Ref sig .tc := ⟨.hbm, 152, rfl⟩
abbrev main_v100 : Ref sig .tc := ⟨.hbm, 153, rfl⟩
abbrev main_v101 : Ref sig .tc := ⟨.hbm, 154, rfl⟩
abbrev main_c_23 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_24 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_25 : Ref sig .tc := ⟨.hbm, 171, rfl⟩
abbrev main_v116 : Ref sig .tc := ⟨.hbm, 172, rfl⟩
abbrev main_cst_26 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_27 : Ref sig .tc := ⟨.hbm, 180, rfl⟩
abbrev main_v123 : Ref sig .tc := ⟨.hbm, 181, rfl⟩
abbrev main_cst_28 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_29 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_call3_cst : Ref sig .tc := ⟨.hbm, 201, rfl⟩
abbrev main_call3_v0 : Ref sig .tc := ⟨.hbm, 202, rfl⟩
abbrev main_call3_v1 : Ref sig .tc := ⟨.hbm, 203, rfl⟩
abbrev main_call3_cst_0 : Ref sig .tc := ⟨.hbm, 204, rfl⟩
abbrev main_call3_v2 : Ref sig .tc := ⟨.hbm, 205, rfl⟩
abbrev main_call3_v3 : Ref sig .tc := ⟨.hbm, 206, rfl⟩
abbrev main_call3_cst_1 : Ref sig .tc := ⟨.hbm, 207, rfl⟩
abbrev main_call3_call0_v0 : Ref sig .tc := ⟨.hbm, 208, rfl⟩
abbrev main_call3_call0_v1 : Ref sig .tc := ⟨.hbm, 209, rfl⟩
abbrev main_call3_v4 : Ref sig .tc := ⟨.hbm, 210, rfl⟩
abbrev main_call3_v5 : Ref sig .tc := ⟨.hbm, 211, rfl⟩
abbrev main_call3_cst_2 : Ref sig .tc := ⟨.hbm, 212, rfl⟩
abbrev main_call3_v6 : Ref sig .tc := ⟨.hbm, 213, rfl⟩
abbrev main_call3_v7 : Ref sig .tc := ⟨.hbm, 214, rfl⟩
abbrev main_v141 : Ref sig .tc := ⟨.hbm, 215, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KerRun.lean ====
/-
  The idealized kernel program's run with its RESULT named: the four regions among the host stretches run to the
  end, every argument array as launched, and the result array at the last region's exit contents — the fold of the
  host operations' results and the regions' write-backs from the launch memory.
-/
import proofs.«115092_j20366734917864_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and
    every argument array as launched. -/
theorem run : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v117 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KerRun

end
-- ==== Proof.Spec.lean ====
/-
  One graph-convolution layer as the host program spells it, named stage by stage, and the two-layer network.
  Nodes carry 128 features; the edge list (2 × 600000 words) is extended by one self-loop per node, so every
  sum over "edges" runs over 650000 entries.  With deg(i) the number of entries whose target is i,
  dinv(i) = deg(i)^(-1/2) where deg(i) > 0 and 0 elsewhere, and norm(e) = dinv(src e) · dinv(dst e), a layer maps
  the node features h to
      a(i, ·) = Σ_{e : dst e = i} norm(e) · (h · W)(src e, ·) + b
  then normalises every feature column over the 50000 nodes (mean, biased variance, ε = 1e-5, scale γ, shift β)
  and applies ELU.  Everything here is a composition of the printed host operations; nothing is proved.
-/
import proofs.«115092_j20366734917864_1_alg».proof.ReferenceIdeal

noncomputable section

namespace Cert.Spec

open Idealize.ShloMosaic Cert.ReferenceIdeal Cert.ReferenceIdeal.Facts₀

variable {F : FTy → Type} [FloatOps F] [Cert.ReferenceIdeal.Facts]

/-- An array of 32-bit words of shape `s`. -/
abbrev Wd (s : Shape) : Type := (⟨s, .i32⟩ : BufTy).Contents (Elt F)
/-- An array of f32 values of shape `s`. -/
abbrev Fl (s : Shape) : Type := (⟨s, .f32⟩ : BufTy).Contents (Elt F)

/-- Row `k` of the edge list (k = 0 the sources, k = 1 the targets) followed by the self-loops 0 … 49999. -/
def ends (k : Fin 2) (ei : Wd (F := F) S2x600000) : Wd (F := F) S650000 :=
  match k with
  | ⟨0, _⟩ => concatenate S650000 0 [⟨S600000, shapeCast S600000 (extractStridedSlice S1x600000 ![0, 0] ei slices_S2x600000_S1x600000_0_0) shapeCasts_S1x600000_S600000⟩, ⟨S50000, iotaInDim S50000 32 0⟩] concatenates_S600000_S50000_S650000_d0
  | ⟨1, _⟩ => concatenate S650000 0 [⟨S600000, shapeCast S600000 (extractStridedSlice S1x600000 ![1, 0] ei slices_S2x600000_S1x600000_1_0) shapeCasts_S1x600000_S600000⟩, ⟨S50000, iotaInDim S50000 32 0⟩] concatenates_S600000_S50000_S650000_d0

/-- jnp's indexing of an axis of extent 50000: a negative index counts from the end; as a column of start indices. -/
def wrap (j : Wd (F := F) S650000) : Wd (F := F) S650000x1 :=
  broadcastInDim S650000x1 ![0] bcast_S650000_S650000x1_0
    (select (cmpi .slt j (broadcastInDim S650000 ![] bcast_S_S650000 (constantI S_ 32 0#32)))
      (addi j (broadcastInDim S650000 ![] bcast_S_S650000 (constantI S_ 32 50000#32))) j)

/-- The number of entries whose target is each node (a scatter-add of ones into zeros). -/
def deg (ei : Wd (F := F) S2x600000) : Fl (F := F) S50000 :=
  Host.scatterAdd scatter_S50000_S650000x1_S650000_n_0_0_1
    (broadcastInDim S50000 ![] bcast_S_S50000 (constant S_ .f32 0x00000000#32))
    (broadcastInDim S650000x1 ![0] bcast_S650000_S650000x1_0 (ends 1 ei))
    (broadcastInDim S650000 ![] bcast_S_S650000 (constant S_ .f32 0x3F800000#32))

/-- deg^(-1/2) where the degree is positive, 0 elsewhere. -/
def dinv (ei : Wd (F := F) S2x600000) : Fl (F := F) S50000 :=
  select (cmpf .ogt (deg ei) (broadcastInDim S50000 ![] bcast_S_S50000 (constant S_ .f32 0x00000000#32)))
    (Host.rsqrt (deg ei))
    (broadcastInDim S50000 ![] bcast_S_S50000 (id (constant S_ .f32 0x00000000#32)))

/-- The symmetric normalisation of every entry: dinv at its source times dinv at its target. -/
def norm (ei : Wd (F := F) S2x600000) : Fl (F := F) S650000 :=
  mulf (Host.gather gather_S50000_S650000x1_S650000_n_0_n_n_0_1_1 (dinv ei) (wrap (ends 0 ei)))
    (Host.gather gather_S50000_S650000x1_S650000_n_0_n_n_0_1_1 (dinv ei) (wrap (ends 1 ei)))

/-- The aggregation of the transformed features `h` over the entries, plus the bias row. -/
def agg (ei : Wd (F := F) S2x600000) (h : Fl (F := F) S50000x128) (b : Fl (F := F) S128) : Fl (F := F) S50000x128 :=
  addf
    (Host.scatterAdd scatter_S50000x128_S650000x1_S650000x128_1_0_0_1
      (broadcastInDim S50000x128 ![] bcast_S_S50000x128 (constant S_ .f32 0x00000000#32))
      (broadcastInDim S650000x1 ![0] bcast_S650000_S650000x1_0 (ends 1 ei))
      (mulf (Host.gather gather_S50000x128_S650000x1_S650000x128_1_0_n_n_0_1_1128 h (wrap (ends 0 ei)))
        (broadcastInDim S650000x128 ![0, 1] bcast_S650000x1_S650000x128_0_1
          (broadcastInDim S650000x1 ![0] bcast_S650000_S650000x1_0 (norm ei)))))
    (broadcastInDim S50000x128 ![0, 1] bcast_S1x128_S50000x128_0_1 (broadcastInDim S1x128 ![1] bcast_S128_S1x128_1 b))

/-- A vector of 128 column values laid along every one of the 50000 rows. -/
def rows (v : Fl (F := F) S128) : Fl (F := F) S50000x128 :=
  broadcastInDim S50000x128 ![0, 1] bcast_S1x128_S50000x128_0_1 (broadcastInDim S1x128 ![1] bcast_S128_S1x128_1 v)

/-- The column sums divided by 50000. -/
def colMean (a : Fl (F := F) S50000x128) : Fl (F := F) S128 :=
  Host.divf (Host.reduceAdd a (constant S_ .f32 0x00000000#32) reducesTo_S50000x128_S128_d0 h_S_)
    (broadcastInDim S128 ![] bcast_S_S128 (constant S_ .f32 0x47435000#32))

/-- The column means of the squared deviations from the column means (the biased variance). -/
def colVar (a : Fl (F := F) S50000x128) : Fl (F := F) S128 :=
  colMean (mulf (subf a (rows (colMean a))) (subf a (rows (colMean a))))

/-- The normalised, scaled and shifted array. -/
def bn (a : Fl (F := F) S50000x128) (g be : Fl (F := F) S128) : Fl (F := F) S50000x128 :=
  addf (mulf (mulf (subf a (rows (colMean a)))
      (rows (Host.rsqrt (addf (colVar a) (broadcastInDim S128 ![] bcast_S_S128 (constant S_ .f32 0x3727C5AC#32))))))
    (rows g)) (rows be)

/-- ELU as jax.nn.elu spells it: y where y > 0, else 1 · expm1 (0 where y > 0, else y). -/
def elu (y : Fl (F := F) S50000x128) : Fl (F := F) S50000x128 :=
  select (cmpf .ogt y (broadcastInDim S50000x128 ![] bcast_S_S50000x128 (constant S_ .f32 0x00000000#32))) y
    (mulf (broadcastInDim S50000x128 ![] bcast_S_S50000x128 (constant S_ .f32 0x3F800000#32))
      (Host.expm1 (select (cmpf .ogt y (broadcastInDim S50000x128 ![] bcast_S_S50000x128 (constant S_ .f32 0x00000000#32)))
        (broadcastInDim S50000x128 ![] bcast_S_S50000x128 (id (constant S_ .f32 0x00000000#32))) y)))

/-- One layer: transform, aggregate, normalise, activate. -/
def layer (ei : Wd (F := F) S2x600000) (h : Fl (F := F) S50000x128) (W : Fl (F := F) S128x128) (b g be : Fl (F := F) S128) :
    Fl (F := F) S50000x128 :=
  elu (bn (agg ei (Host.dotGeneral dot_S50000x128_S128x128_S50000x128_1_0_0_1_n_n none h W) b) g be)

/-- The two-layer network. -/
def net (x : Fl (F := F) S50000x128) (ei : Wd (F := F) S2x600000) (W1 : Fl (F := F) S128x128) (b1 g1 be1 : Fl (F := F) S128)
    (W2 : Fl (F := F) S128x128) (b2 g2 be2 : Fl (F := F) S128) : Fl (F := F) S50000x128 :=
  layer ei (layer ei x W1 b1 g1 be1) W2 b2 g2 be2

end Cert.Spec

end
-- ==== Proof.PointStats.lean ====
/-
  The column statistics as the kernel's program spells them on the host: the column sums of a 50000 × 128 array laid
  as one row of 128 and divided by 50000 (the mean row), the same of the squared deviations from the mean row (the
  biased-variance row), and a vector of 128 values reshaped to one row.  Each row, read at column q, is the
  specification's column statistic at q.
-/
import proofs.«115092_j20366734917864_1_alg».proof.Proof.Spec
import proofs.«115092_j20366734917864_1_alg».proof.KernelIdeal
import Idealize.ShloMosaic.Lib.ValueIdx
import Idealize.ShloMosaic.Lib.ValueLayout

noncomputable section

namespace Cert.Point

open Idealize.ShloMosaic Idealize.ShloMosaic.ValueIdx

section Defs
variable {F : FTy → Type} [FloatOps F] [Cert.KernelIdeal.Facts]
open Cert.KernelIdeal Cert.KernelIdeal.Facts₀

/-- The mean row: the column sums, laid as one row, divided by 50000 (the word 0x47435000). -/
def kMean (A : Cert.Spec.Fl (F := F) Cert.KernelIdeal.S50000x128) : Cert.Spec.Fl (F := F) Cert.KernelIdeal.S1x128 :=
  Host.divf
    (broadcastInDim Cert.KernelIdeal.S1x128 ![1] bcast_S128_S1x128_1
      (Host.reduceAdd A (constant Cert.KernelIdeal.S_ .f32 0x00000000#32) reducesTo_S50000x128_S128_d0 h_S_))
    (broadcastInDim Cert.KernelIdeal.S1x128 ![] bcast_S_S1x128 (constant Cert.KernelIdeal.S_ .f32 0x47435000#32))

/-- The deviations from the mean row. -/
def kDev (A : Cert.Spec.Fl (F := F) Cert.KernelIdeal.S50000x128) : Cert.Spec.Fl (F := F) Cert.KernelIdeal.S50000x128 :=
  subf A (broadcastInDim Cert.KernelIdeal.S50000x128 ![0, 1] bcast_S1x128_S50000x128_0_1 (kMean A))

/-- The biased-variance row: the mean row of the squared deviations. -/
def kVar (A : Cert.Spec.Fl (F := F) Cert.KernelIdeal.S50000x128) : Cert.Spec.Fl (F := F) Cert.KernelIdeal.S1x128 :=
  Host.divf
    (broadcastInDim Cert.KernelIdeal.S1x128 ![1] bcast_S128_S1x128_1
      (Host.reduceAdd (mulf (kDev A) (kDev A)) (constant Cert.KernelIdeal.S_ .f32 0x00000000#32) reducesTo_S50000x128_S128_d0 h_S_))
    (broadcastInDim Cert.KernelIdeal.S1x128 ![] bcast_S_S1x128 (constant Cert.KernelIdeal.S_ .f32 0x47435000#32))

/-- A vector of 128 values reshaped to one row. -/
def kRow (g : Cert.Spec.Fl (F := F) Cert.KernelIdeal.S128) : Cert.Spec.Fl (F := F) Cert.KernelIdeal.S1x128 :=
  fun i => shapeCast Cert.KernelIdeal.S1x128 g shapeCasts_S128_S1x128 i

/-- The variance row is the mean row of the squared deviations. -/
theorem kVar_eq (A : Cert.Spec.Fl (F := F) Cert.KernelIdeal.S50000x128) : kVar A = kMean (mulf (kDev A) (kDev A)) := rfl

end Defs

section AtIdeal
variable [Cert.KernelIdeal.Facts] [Cert.ReferenceIdeal.Facts]

/-- The mean row at column q is the specification's column mean at q. -/
theorem kMean_apply (A : Cert.Spec.Fl (F := Ideal) Cert.KernelIdeal.S50000x128) (q : Fin 128) :
    kMean (F := Ideal) A (ix2 0 q) = Cert.Spec.colMean A (ix1 q) := by
  unfold kMean Cert.Spec.colMean
  show Ideal.div _ _ = Ideal.div _ _
  refine congrArg₂ Ideal.div ?_ rfl
  exact broadcastInDim_apply _ _ _ (ix2 (0 : Fin 1) q) (ix1 q) (fun a => by match a with | ⟨0, _⟩ => rfl)

/-- The specification's row layout of a vector of 128 values, read at (p, q). -/
theorem rows_at (v : Cert.Spec.Fl (F := Ideal) Cert.ReferenceIdeal.S128) (p : Fin 50000) (q : Fin 128) :
    Cert.Spec.rows v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The deviations from the mean row are the specification's deviations from the column means. -/
theorem kDev_eq (A : Cert.Spec.Fl (F := Ideal) Cert.KernelIdeal.S50000x128) :
    kDev (F := Ideal) A = subf A (Cert.Spec.rows (Cert.Spec.colMean A)) := by
  funext i
  obtain ⟨p, q, rfl⟩ : ∃ (p : Fin 50000) (q : Fin 128), i = ix2 p q := ⟨i 0, i 1, eq_ix2 i⟩
  unfold kDev
  rw [subf_apply, subf_apply, rows_at]
  refine congrArg (A (ix2 p q) - ·) ?_
  refine (broadcastInDim_apply _ _ _ (ix2 p q) (ix2 (0 : Fin 1) q) (fun a => ?_)).trans (kMean_apply A q)
  match a with
  | ⟨0, _⟩ => rfl
  | ⟨1, _⟩ => rfl

/-- The variance row at column q is the specification's biased column variance at q. -/
theorem kVar_apply (A : Cert.Spec.Fl (F := Ideal) Cert.KernelIdeal.S50000x128) (q : Fin 128) :
    kVar (F := Ideal) A (ix2 0 q) = Cert.Spec.colVar A (ix1 q) := by
  rw [kVar_eq, kMean_apply, kDev_eq]
  rfl

/-- The reshaped row at column q is the vector at q. -/
theorem kRow_apply (g : Cert.Spec.Fl (F := Ideal) Cert.KernelIdeal.S128) (q : Fin 128) :
    kRow (F := Ideal) g (ix2 0 q) = g (ix1 q) :=
  shapeCast_a_1a_apply g _ 0 q

end AtIdeal

end Cert.Point

end
-- ==== Proof.KerHost1.lean ====
/-
  The host stretches of the first layer read back.  Before the first product region the host computes, from the
  edge list alone, the two index lists (with the self-loops appended) and the per-entry normalisation; after it the
  host gathers the product's rows by source, scales them, sums them by target and adds the bias — which is the
  specification's aggregation applied to whatever the product region left — and then the column statistics of that
  array and the scale and shift rows the normalising region reads.
-/
import proofs.«115092_j20366734917864_1_alg».proof.Proof.Gen.KernelIdeal.Frame
import proofs.«115092_j20366734917864_1_alg».proof.Proof.Gen.ReferenceIdeal
import proofs.«115092_j20366734917864_1_alg».proof.Proof.Spec
import proofs.«115092_j20366734917864_1_alg».proof.Proof.PointStats
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- After the second host stretch the aggregated array is the specification's aggregation of the product region's
    output, over the launch contents of the edge list and of the first bias. -/
theorem W5_v46 (c : Dev nD) :
    W5 m ρ c (Proc.devRef .tc main_v46)
      = Cert.Spec.agg (m ((c : Thread nD τ).loc main_arg1)) (W4 m ρ c (Proc.devRef .tc main_v30)) (m ((c : Thread nD τ).loc main_arg3)) := by
  dsimp only [W5, hostOps1]
  after_results_simp
  rw [W4_of_ne m ρ c main_v5 (by decide), W4_of_ne m ρ c main_v6 (by decide), W4_of_ne m ρ c main_v29 (by decide),
    W4_of_ne m ρ c main_arg3 (by decide)]
  dsimp only [W3, W2, W1, hostOps0_2, hostOps0_1, hostOps0]
  after_results_simp
  rfl

set_option maxHeartbeats 4000000 in
/-- The first host stretches write none of the arguments the first product region reads. -/
theorem W3_arg0 (c : Dev nD) : W3 m ρ c (Proc.devRef .tc main_arg0) = m ((c : Thread nD τ).loc main_arg0) := by
  dsimp only [W3, W2, W1, hostOps0_2, hostOps0_1, hostOps0]
  after_results_simp

set_option maxHeartbeats 4000000 in
theorem W3_arg2 (c : Dev nD) : W3 m ρ c (Proc.devRef .tc main_arg2) = m ((c : Thread nD τ).loc main_arg2) := by
  dsimp only [W3, W2, W1, hostOps0_2, hostOps0_1, hostOps0]
  after_results_simp

set_option maxHeartbeats 4000000 in
/-- The mean row the normalising region reads: the column sums of the aggregated array, as a 1×128 row, divided by 50000. -/
theorem W5_v50 (c : Dev nD) :
    W5 m ρ c (Proc.devRef .tc main_v50) = Cert.Point.kMean (W5 m ρ c (Proc.devRef .tc main_v46)) := by
  dsimp only [W5, hostOps1]
  after_results_simp
  rfl

set_option maxHeartbeats 4000000 in
/-- The variance row: the column sums of the squared deviations from the mean row, as a 1×128 row, divided by 50000. -/
theorem W5_v57 (c : Dev nD) :
    W5 m ρ c (Proc.devRef .tc main_v57) = Cert.Point.kVar (W5 m ρ c (Proc.devRef .tc main_v46)) := by
  dsimp only [W5, hostOps1]
  after_results_simp
  rfl

set_option maxHeartbeats 4000000 in
/-- The scale row: the first layer's scale vector reshaped to 1×128. -/
theorem W5_v58 (c : Dev nD) :
    W5 m ρ c (Proc.devRef .tc main_v58) = Cert.Point.kRow (m ((c : Thread nD τ).loc main_arg4)) := by
  dsimp only [W5, hostOps1]
  after_results_simp
  rw [W4_of_ne m ρ c main_arg4 (by decide)]
  dsimp only [W3, W2, W1, hostOps0_2, hostOps0_1, hostOps0]
  after_results_simp
  rfl

set_option maxHeartbeats 4000000 in
/-- The shift row: the first layer's shift vector reshaped to 1×128. -/
theorem W5_v59 (c : Dev nD) :
    W5 m ρ c (Proc.devRef .tc main_v59) = Cert.Point.kRow (m ((c : Thread nD τ).loc main_arg5)) := by
  dsimp only [W5, hostOps1]
  after_results_simp
  rw [W4_of_ne m ρ c main_arg5 (by decide)]
  dsimp only [W3, W2, W1, hostOps0_2, hostOps0_1, hostOps0]
  after_results_simp
  rfl

end Cert.KernelIdeal.Host1

end
-- ==== Proof.LibHostRead.lean ====
/-
  Reading a buffer after a run of host operations, wherever the read stands in the goal.  A host operation's result
  at its own buffer is its function of the operands' contents, and at any other buffer what was there before; the
  library's one-pass simplification of such reads does not descend into the second component of a dependent pair
  (the operand list of a concatenate, once the operation's function has been applied), so a read left there is
  rewritten by these equations one at a time, the buffers' inequalities decided.
-/
import Idealize.ShloMosaic.Lib.StableHlo.Run

namespace Cert.LibHostRead

open Idealize.ShloMosaic Idealize.ShloMosaic.StableHlo

/-- Rewrites every remaining read through a single host operation (nullary, unary, binary, ternary, reshape),
    anywhere in the goal, until none is left. Use after the library's one-pass simplification of the fold. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.LibHostRead
-- ==== Proof.KerHost2.lean ====
/-
  The host stretches of the second layer read back.  The host recomputes the two index lists and the per-entry
  normalisation from the same edge list (the same operations as in the first layer, on fresh buffers), so after the
  second product region the aggregated array is again the specification's aggregation, now of what the second
  product region left and with the second bias.
-/
import proofs.«115092_j20366734917864_1_alg».proof.Proof.Gen.KernelIdeal.Frame
import proofs.«115092_j20366734917864_1_alg».proof.Proof.Gen.ReferenceIdeal
import proofs.«115092_j20366734917864_1_alg».proof.Proof.Spec
import Idealize.ShloMosaic.Lib.StableHlo.Run
import proofs.«115092_j20366734917864_1_alg».proof.Proof.LibHostRead
import proofs.«115092_j20366734917864_1_alg».proof.Proof.PointStats

set_option maxRecDepth 16384

noncomputable section

namespace Cert.KernelIdeal.Host2

open Cert.KernelIdeal Cert.KernelIdeal.Gen
open Idealize.ShloMosaic Idealize.ShloMosaic.TcCoe Idealize.SL.Sem Idealize.ShloMosaic.StableHlo Cert.LibHostRead

variable {F : FTy → Type} [FloatOps F]
variable (m : (ℓ : Loc nD τ sig) → Buf (Elt F) ℓ) (ρ : Dev nD → PrngReg)

set_option maxHeartbeats 4000000 in
/-- The host stretch between the first layer's activation and the second product region writes neither the
    activation's output nor the second weight. -/
theorem W9_v60 (c : Dev nD) : W9 m ρ c (Proc.devRef .tc main_v60) = W6 m ρ c (Proc.devRef .tc main_v60) := by
  dsimp only [W9, W8, W7, hostOps2_2, hostOps2_1, hostOps2]
  after_results_simp
  results_rw

set_option maxHeartbeats 4000000 in
theorem W9_arg6 (c : Dev nD) : W9 m ρ c (Proc.devRef .tc main_arg6) = m ((c : Thread nD τ).loc main_arg6) := by
  dsimp only [W9, W8, W7, hostOps2_2, hostOps2_1, hostOps2]
  after_results_simp
  results_rw
  rw [W6_of_ne m ρ c main_arg6 (by decide)]
  dsimp only [W5, hostOps1]
  after_results_simp
  results_rw
  rw [W4_of_ne m ρ c main_arg6 (by decide)]
  dsimp only [W3, W2, W1, hostOps0_2, hostOps0_1, hostOps0]
  after_results_simp
  results_rw
  all_goals rfl

set_option maxHeartbeats 8000000 in
/-- After the last host stretch the aggregated array is the specification's aggregation of the second product
    region's output, over the launch contents of the edge list and of the second bias. -/
theorem W11_v103 (c : Dev nD) :
    W11 m ρ c (Proc.devRef .tc main_v103)
      = Cert.Spec.agg (m ((c : Thread nD τ).loc main_arg1)) (W10 m ρ c (Proc.devRef .tc main_v87)) (m ((c : Thread nD τ).loc main_arg7)) := by
  dsimp only [W11, hostOps3]
  after_results_simp
  results_rw
  rw [W10_of_ne m ρ c main_v62 (by decide), W10_of_ne m ρ c main_v63 (by decide), W10_of_ne m ρ c main_v86 (by decide),
    W10_of_ne m ρ c main_arg7 (by decide)]
  dsimp only [W9, W8, W7, hostOps2_2, hostOps2_1, hostOps2]
  after_results_simp
  results_rw
  rw [W6_of_ne m ρ c main_v1 (by decide), W6_of_ne m ρ c main_v3 (by decide), W6_of_ne m ρ c main_arg7 (by decide)]
  dsimp only [W5, hostOps1]
  after_results_simp
  results_rw
  rw [W4_of_ne m ρ c main_v1 (by decide), W4_of_ne m ρ c main_v3 (by decide), W4_of_ne m ρ c main_arg7 (by decide)]
  dsimp only [W3, W2, W1, hostOps0_2, hostOps0_1, hostOps0]
  after_results_simp
  results_rw
  all_goals rfl

end Cert.KernelIdeal.Host2

end
-- ==== Proof.KerHost3.lean ====
/-
  The statistic and parameter rows the second normalising region reads, read back from the last host stretch: the
  mean row and the variance row of the second aggregated array, and the second layer's scale and shift vectors as
  1×128 rows.
-/
import proofs.«115092_j20366734917864_1_alg».proof.Proof.Gen.KernelIdeal.Frame
import proofs.«115092_j20366734917864_1_alg».proof.Proof.Gen.ReferenceIdeal
import proofs.«115092_j20366734917864_1_alg».proof.Proof.Spec
import proofs.«115092_j20366734917864_1_alg».proof.Proof.LibHostRead
import proofs.«115092_j20366734917864_1_alg».proof.Proof.PointStats
import Idealize.ShloMosaic.Lib.StableHlo.Run

set_option maxRecDepth 16384

noncomputable section

namespace Cert.KernelIdeal.Host3

open Cert.KernelIdeal Cert.KernelIdeal.Gen
open Idealize.ShloMosaic Idealize.ShloMosaic.TcCoe Idealize.SL.Sem Idealize.ShloMosaic.StableHlo Cert.LibHostRead

variable {F : FTy → Type} [FloatOps F]
variable (m : (ℓ : Loc nD τ sig) → Buf (Elt F) ℓ) (ρ : Dev nD → PrngReg)

set_option maxHeartbeats 4000000 in
/-- The mean row: the column sums of the second aggregated array, as a 1×128 row, divided by 50000. -/
theorem W11_v107 (c : Dev nD) :
    W11 m ρ c (Proc.devRef .tc main_v107) = Cert.Point.kMean (W11 m ρ c (Proc.devRef .tc main_v103)) := by
  dsimp only [W11, hostOps3]
  after_results_simp
  results_rw
  all_goals rfl

set_option maxHeartbeats 4000000 in
/-- The variance row: the column sums of the squared deviations from the mean row, as a 1×128 row, divided by 50000. -/
theorem W11_v114 (c : Dev nD) :
    W11 m ρ c (Proc.devRef .tc main_v114) = Cert.Point.kVar (W11 m ρ c (Proc.devRef .tc main_v103)) := by
  dsimp only [W11, hostOps3]
  after_results_simp
  results_rw
  all_goals rfl

set_option maxHeartbeats 8000000 in
/-- The scale row: the second layer's scale vector reshaped to 1×128. -/
theorem W11_v115 (c : Dev nD) :
    W11 m ρ c (Proc.devRef .tc main_v115) = Cert.Point.kRow (m ((c : Thread nD τ).loc main_arg8)) := by
  dsimp only [W11, hostOps3]
  after_results_simp
  results_rw
  rw [W10_of_ne m ρ c main_arg8 (by decide)]
  dsimp only [W9, W8, W7, hostOps2_2, hostOps2_1, hostOps2]
  after_results_simp
  results_rw
  rw [W6_of_ne m ρ c main_arg8 (by decide)]
  dsimp only [W5, hostOps1]
  after_results_simp
  results_rw
  rw [W4_of_ne m ρ c main_arg8 (by decide)]
  dsimp only [W3, W2, W1, hostOps0_2, hostOps0_1, hostOps0]
  after_results_simp
  results_rw
  all_goals rfl

set_option maxHeartbeats 8000000 in
/-- The shift row: the second layer's shift vector reshaped to 1×128. -/
theorem W11_v116 (c : Dev nD) :
    W11 m ρ c (Proc.devRef .tc main_v116) = Cert.Point.kRow (m ((c : Thread nD τ).loc main_arg9)) := by
  dsimp only [W11, hostOps3]
  after_results_simp
  results_rw
  rw [W10_of_ne m ρ c main_arg9 (by decide)]
  dsimp only [W9, W8, W7, hostOps2_2, hostOps2_1, hostOps2]
  after_results_simp
  results_rw
  rw [W6_of_ne m ρ c main_arg9 (by decide)]
  dsimp only [W5, hostOps1]
  after_results_simp
  results_rw
  rw [W4_of_ne m ρ c main_arg9 (by decide)]
  dsimp only [W3, W2, W1, hostOps0_2, hostOps0_1, hostOps0]
  after_results_simp
  results_rw
  all_goals rfl

end Cert.KernelIdeal.Host3

end
-- ==== Proof.Region0.lean ====
/-
  What region 0 (a matrix product tiled by rows: ten blocks of 5000 rows, the whole 128×128 weight at every
  point) leaves in its output array, as ONE function of the arrays the region finds: entry (p, q) is the sum over
  k of X[p, k] · W[k, q].  Each point's block of the output is that function restricted to rows 5000·t … 5000·t + 4999,
  and the ten blocks cover the array.
-/
import proofs.«115092_j20366734917864_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product matrix, entry by entry. -/
def prod (X : S50000x128.Idx → EReal) (W : S128x128.Idx → EReal) : S50000x128.Idx → EReal :=
  fun i => ∑ k : Fin 128, X (ix2 (i 0) k) * W (ix2 k (i 1))

/-- The index maps over the grid: the row-block index of the input and of the output is the point's number, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows 5000·t … of the array the region finds. -/
theorem xblk_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -, -, -, -⟩ := idx_facts t
  unfold iblk0
  rw [View.read_apply]
  show (V c main_arg0 : S50000x128.Idx → EReal) _ = V c main_arg0 k
  refine congrArg _ ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight block at every point is the whole weight array. -/
theorem wblk_apply (c : Dev nD) (t : Fin cfg0.N) (x : S128x128.Idx) :
    (iblk0 V c 1 t : Vec Ideal S128x128 .f32) x = (V c main_arg2 : S128x128.Idx → EReal) x := by
  obtain ⟨-, -, e2, e3, -, -⟩ := idx_facts t
  unfold iblk0
  rw [View.read_apply]
  show (V c main_arg2 : S128x128.Idx → EReal) _ = V c main_arg2 x
  refine congrArg _ ?_
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point `t` writes back is block `t` of the product matrix. -/
theorem flushed_eq (hpay : ∀ (x : Vec Ideal S5000x128 .f32) (w : Vec Ideal S128x128 .f32) (r : Fin 5000) (q : Fin 128),
      k0_pay1 x w (ix2 r q) = ∑ k : Fin 128, x (ix2 r k) * w (ix2 k q)) (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  obtain ⟨r, q, rfl⟩ : ∃ (r : Fin 5000) (q : Fin 128), j = ix2 r q := ⟨j 0, j 1, eq_ix2 j⟩
  refine (hpay _ _ r q).trans ?_
  show _ = prod (V c main_arg0) (V c main_arg2) (((cfg0.win 2).blk t).view.emb (ix2 r q))
  unfold prod
  refine Finset.sum_congr rfl fun k _ => ?_
  rw [xblk_apply V c t (ix2 r k) (ix2 ((((cfg0.win 2).blk t).view.emb (ix2 r q)) 0) k) ?_ rfl, wblk_apply V c t (ix2 k q)]
  · have hidx : (ix2 k q : S128x128.Idx) = ix2 k ((((cfg0.win 2).blk t).view.emb (ix2 r q)) 1) := by
      funext a
      apply Fin.ext
      match a with
      | ⟨0, _⟩ => rfl
      | ⟨1, _⟩ => show q.val = win0_2.index t 1 * 128 + 1 * q.val; rw [e5]; omega
    rw [hidx]
    rfl
  · show win0_2.index t 0 * 5000 + 1 * r.val = 5000 * t.val + r.val
    rw [e4]; omega

/-- An index of the array is in point `t`'s block iff its row is in the block's rows. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks cover the array: row p is in block p / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := idx_facts t
  refine ⟨t, flush0_2 t, ?_⟩
  rw [mem_blk]
  intro a
  match a with
  | ⟨0, _⟩ => show win0_2.index t 0 * 5000 ≤ (i 0).val ∧ (i 0).val < win0_2.index t 0 * 5000 + 5000
              rw [e4]; show (i 0).val / 5000 * 5000 ≤ (i 0).val ∧ (i 0).val < (i 0).val / 5000 * 5000 + 5000; omega
  | ⟨1, _⟩ => show win0_2.index t 1 * 128 ≤ (i 1).val ∧ (i 1).val < win0_2.index t 1 * 128 + 128
              rw [e5]; omega

/-- The output array after the region: the product matrix of the arrays the region finds. -/
theorem final (hpay : ∀ (x : Vec Ideal S5000x128 .f32) (w : Vec Ideal S128x128 .f32) (r : Fin 5000) (q : Fin 128),
      k0_pay1 x w (ix2 r q) = ∑ k : Fin 128, x (ix2 r k) * w (ix2 k q)) (c : Dev nD) : (dat0 V c).arrAt 2 cfg0.N = prod (V c main_arg0) (V c main_arg2) :=
  (dat0 V c).arrAt_eq_of_cover 2 (prod (V c main_arg0) (V c main_arg2)) (fun t _ => flushed_eq V hpay c t) cover

end Cert.KernelIdeal.Region0

end
-- ==== Proof.Region1.lean ====
/-
  What region 1 (the fused normalise-and-activate step, tiled by rows: ten blocks of 5000 rows, the four 1×128
  statistic and parameter rows whole at every point) leaves in its output array, as ONE function of the arrays the
  region finds: entry (p, q) is a fixed scalar function of A[p, q] and of the four rows' entries at column q.
-/
import proofs.«115092_j20366734917864_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The entrywise function of the array and of the four rows. -/
def rowwise (E : EReal → EReal → EReal → EReal → EReal → EReal) (A : S50000x128.Idx → EReal) (MU VAR G BE : S1x128.Idx → EReal) :
    S50000x128.Idx → EReal :=
  fun i => E (A i) (MU (ix2 0 (i 1))) (VAR (ix2 0 (i 1))) (G (ix2 0 (i 1))) (BE (ix2 0 (i 1)))

/-- The index maps over the grid: the row-block index of the input and of the output is the point's number, every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The input block at point `t` is rows 5000·t … of the array the region finds. -/
theorem xblk_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v46 : S50000x128.Idx → EReal) k := by
  obtain ⟨e0, e1, -⟩ := idx_facts t
  unfold iblk1
  rw [View.read_apply]
  show (V c main_v46 : S50000x128.Idx → EReal) _ = V c main_v46 k
  refine congrArg _ ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Row window 1's block at every point is its whole 1×128 array. -/
theorem row1_apply (c : Dev nD) (t : Fin cfg1.N) (x : S1x128.Idx) :
    (iblk1 V c 1 t : Vec Ideal S1x128 .f32) x = (V c main_v50 : S1x128.Idx → EReal) x := by
  have e := idx_facts t
  unfold iblk1
  rw [View.read_apply]
  show (V c main_v50 : S1x128.Idx → EReal) _ = V c main_v50 x
  refine congrArg _ ?_
  funext a
  apply Fin.ext
  match a with
  | ⟨0, _⟩ => show win1_1.index t 0 * 1 + 1 * (x 0).val = (x 0).val; have := e.2.2.1; omega
  | ⟨1, _⟩ => show win1_1.index t 1 * 128 + 1 * (x 1).val = (x 1).val; have := e.2.2.2.1; omega

/-- Row window 2's block at every point is its whole 1×128 array. -/
theorem row2_apply (c : Dev nD) (t : Fin cfg1.N) (x : S1x128.Idx) :
    (iblk1 V c 2 t : Vec Ideal S1x128 .f32) x = (V c main_v57 : S1x128.Idx → EReal) x := by
  have e := idx_facts t
  unfold iblk1
  rw [View.read_apply]
  show (V c main_v57 : S1x128.Idx → EReal) _ = V c main_v57 x
  refine congrArg _ ?_
  funext a
  apply Fin.ext
  match a with
  | ⟨0, _⟩ => show win1_2.index t 0 * 1 + 1 * (x 0).val = (x 0).val; have := e.2.2.2.2.1; omega
  | ⟨1, _⟩ => show win1_2.index t 1 * 128 + 1 * (x 1).val = (x 1).val; have := e.2.2.2.2.2.1; omega

/-- Row window 3's block at every point is its whole 1×128 array. -/
theorem row3_apply (c : Dev nD) (t : Fin cfg1.N) (x : S1x128.Idx) :
    (iblk1 V c 3 t : Vec Ideal S1x128 .f32) x = (V c main_v58 : S1x128.Idx → EReal) x := by
  have e := idx_facts t
  unfold iblk1
  rw [View.read_apply]
  show (V c main_v58 : S1x128.Idx → EReal) _ = V c main_v58 x
  refine congrArg _ ?_
  funext a
  apply Fin.ext
  match a with
  | ⟨0, _⟩ => show win1_3.index t 0 * 1 + 1 * (x 0).val = (x 0).val; have := e.2.2.2.2.2.2.1; omega
  | ⟨1, _⟩ => show win1_3.index t 1 * 128 + 1 * (x 1).val = (x 1).val; have := e.2.2.2.2.2.2.2.1; omega

/-- Row window 4's block at every point is its whole 1×128 array. -/
theorem row4_apply (c : Dev nD) (t : Fin cfg1.N) (x : S1x128.Idx) :
    (iblk1 V c 4 t : Vec Ideal S1x128 .f32) x = (V c main_v59 : S1x128.Idx → EReal) x := by
  have e := idx_facts t
  unfold iblk1
  rw [View.read_apply]
  show (V c main_v59 : S1x128.Idx → EReal) _ = V c main_v59 x
  refine congrArg _ ?_
  funext a
  apply Fin.ext
  match a with
  | ⟨0, _⟩ => show win1_4.index t 0 * 1 + 1 * (x 0).val = (x 0).val; have := e.2.2.2.2.2.2.2.2.1; omega
  | ⟨1, _⟩ => show win1_4.index t 1 * 128 + 1 * (x 1).val = (x 1).val; have := e.2.2.2.2.2.2.2.2.2.1; omega

/-- What point `t` writes back is block `t` of the entrywise function. -/
theorem flushed_eq (E : EReal → EReal → EReal → EReal → EReal → EReal)
    (hpay : ∀ (x : Vec Ideal S5000x128 .f32) (mu var g be : Vec Ideal S1x128 .f32) (r : Fin 5000) (q : Fin 128),
      k1_pay1 x mu var g be (ix2 r q) = E (x (ix2 r q)) (mu (ix2 0 q)) (var (ix2 0 q)) (g (ix2 0 q)) (be (ix2 0 q)))
    (c : Dev nD) (t : Fin cfg1.N) :
    (dat1 V c).flushed 5 t = ((cfg1.win 5).blk t).view.read (Elt Ideal)
      (rowwise E (V c main_v46) (V c main_v50) (V c main_v57) (V c main_v58) (V c main_v59)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  have e := idx_facts t
  have e10 : win1_5.index t (0 : Fin 2) = t.val := e.2.2.2.2.2.2.2.2.2.2.1
  have e11 : win1_5.index t (1 : Fin 2) = 0 := e.2.2.2.2.2.2.2.2.2.2.2
  funext j
  obtain ⟨r, q, rfl⟩ : ∃ (r : Fin 5000) (q : Fin 128), j = ix2 r q := ⟨j 0, j 1, eq_ix2 j⟩
  refine (hpay _ _ _ _ _ r q).trans ?_
  show _ = rowwise E (V c main_v46) (V c main_v50) (V c main_v57) (V c main_v58) (V c main_v59) (((cfg1.win 5).blk t).view.emb (ix2 r q))
  unfold rowwise
  have hidx : (ix2 (0 : Fin 1) ((((cfg1.win 5).blk t).view.emb (ix2 r q)) 1) : S1x128.Idx) = ix2 0 q := by
    funext a
    apply Fin.ext
    match a with
    | ⟨0, _⟩ => rfl
    | ⟨1, _⟩ => show win1_5.index t 1 * 128 + 1 * q.val = q.val; rw [e11]; omega
  rw [hidx, xblk_apply V c t (ix2 r q) (((cfg1.win 5).blk t).view.emb (ix2 r q)) ?_ ?_, row1_apply V c t, row2_apply V c t,
    row3_apply V c t, row4_apply V c t]
  · show win1_5.index t 0 * 5000 + 1 * r.val = 5000 * t.val + r.val
    rw [e10]; omega
  · show win1_5.index t 1 * 128 + 1 * q.val = q.val
    rw [e11]; omega

/-- An index of the array is in point `t`'s block iff its row is in the block's rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v60).slice (win1_5.rect t)).set ↔ _
  rw [View.set_slice_whole, Rect.mem_set_unit]
  exact Iff.rfl

/-- The ten blocks cover the array: row p is in block p / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have e := idx_facts t
  have e10 : win1_5.index t (0 : Fin 2) = t.val := e.2.2.2.2.2.2.2.2.2.2.1
  have e11 : win1_5.index t (1 : Fin 2) = 0 := e.2.2.2.2.2.2.2.2.2.2.2
  refine ⟨t, flush1_5 t, ?_⟩
  rw [mem_blk]
  intro a
  match a with
  | ⟨0, _⟩ => show win1_5.index t 0 * 5000 ≤ (i 0).val ∧ (i 0).val < win1_5.index t 0 * 5000 + 5000
              rw [e10]; show (i 0).val / 5000 * 5000 ≤ (i 0).val ∧ (i 0).val < (i 0).val / 5000 * 5000 + 5000; omega
  | ⟨1, _⟩ => show win1_5.index t 1 * 128 ≤ (i 1).val ∧ (i 1).val < win1_5.index t 1 * 128 + 128
              rw [e11]; omega

/-- The output array after the region: the entrywise function of the arrays the region finds. -/
theorem final (E : EReal → EReal → EReal → EReal → EReal → EReal)
    (hpay : ∀ (x : Vec Ideal S5000x128 .f32) (mu var g be : Vec Ideal S1x128 .f32) (r : Fin 5000) (q : Fin 128),
      k1_pay1 x mu var g be (ix2 r q) = E (x (ix2 r q)) (mu (ix2 0 q)) (var (ix2 0 q)) (g (ix2 0 q)) (be (ix2 0 q)))
    (c : Dev nD) :
    (dat1 V c).arrAt 5 cfg1.N = rowwise E (V c main_v46) (V c main_v50) (V c main_v57) (V c main_v58) (V c main_v59) :=
  (dat1 V c).arrAt_eq_of_cover 5 _ (fun t _ => flushed_eq V E hpay c t) cover

end Cert.KernelIdeal.Region1

end
-- ==== Proof.Region2.lean ====
/-
  What region 2 (a matrix product tiled by rows: ten blocks of 5000 rows, the whole 128×128 weight at every
  point) leaves in its output array, as ONE function of the arrays the region finds: entry (p, q) is the sum over
  k of X[p, k] · W[k, q].  Each point's block of the output is that function restricted to rows 5000·t … 5000·t + 4999,
  and the ten blocks cover the array.
-/
import proofs.«115092_j20366734917864_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product matrix, entry by entry. -/
def prod (X : S50000x128.Idx → EReal) (W : S128x128.Idx → EReal) : S50000x128.Idx → EReal :=
  fun i => ∑ k : Fin 128, X (ix2 (i 0) k) * W (ix2 k (i 1))

/-- The index maps over the grid: the row-block index of the input and of the output is the point's number, every
    other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t` is rows 5000·t … of the array the region finds. -/
theorem xblk_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v60 : S50000x128.Idx → EReal) k := by
  obtain ⟨e0, e1, -, -, -, -⟩ := idx_facts t
  unfold iblk2
  rw [View.read_apply]
  show (V c main_v60 : S50000x128.Idx → EReal) _ = V c main_v60 k
  refine congrArg _ ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weight block at every point is the whole weight array. -/
theorem wblk_apply (c : Dev nD) (t : Fin cfg2.N) (x : S128x128.Idx) :
    (iblk2 V c 1 t : Vec Ideal S128x128 .f32) x = (V c main_arg6 : S128x128.Idx → EReal) x := by
  obtain ⟨-, -, e2, e3, -, -⟩ := idx_facts t
  unfold iblk2
  rw [View.read_apply]
  show (V c main_arg6 : S128x128.Idx → EReal) _ = V c main_arg6 x
  refine congrArg _ ?_
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- What point `t` writes back is block `t` of the product matrix. -/
theorem flushed_eq (hpay : ∀ (x : Vec Ideal S5000x128 .f32) (w : Vec Ideal S128x128 .f32) (r : Fin 5000) (q : Fin 128),
      k2_pay1 x w (ix2 r q) = ∑ k : Fin 128, x (ix2 r k) * w (ix2 k q)) (c : Dev nD) (t : Fin cfg2.N) :
    (dat2 V c).flushed 2 t = ((cfg2.win 2).blk t).view.read (Elt Ideal) (prod (V c main_v60) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  obtain ⟨r, q, rfl⟩ : ∃ (r : Fin 5000) (q : Fin 128), j = ix2 r q := ⟨j 0, j 1, eq_ix2 j⟩
  refine (hpay _ _ r q).trans ?_
  show _ = prod (V c main_v60) (V c main_arg6) (((cfg2.win 2).blk t).view.emb (ix2 r q))
  unfold prod
  refine Finset.sum_congr rfl fun k _ => ?_
  rw [xblk_apply V c t (ix2 r k) (ix2 ((((cfg2.win 2).blk t).view.emb (ix2 r q)) 0) k) ?_ rfl, wblk_apply V c t (ix2 k q)]
  · have hidx : (ix2 k q : S128x128.Idx) = ix2 k ((((cfg2.win 2).blk t).view.emb (ix2 r q)) 1) := by
      funext a
      apply Fin.ext
      match a with
      | ⟨0, _⟩ => rfl
      | ⟨1, _⟩ => show q.val = win2_2.index t 1 * 128 + 1 * q.val; rw [e5]; omega
    rw [hidx]
    rfl
  · show win2_2.index t 0 * 5000 + 1 * r.val = 5000 * t.val + r.val
    rw [e4]; omega

/-- An index of the array is in point `t`'s block iff its row is in the block's rows. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v87).slice (win2_2.rect t)).set ↔ _
  rw [View.set_slice_whole, Rect.mem_set_unit]
  exact Iff.rfl

/-- The ten blocks cover the array: row p is in block p / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, e4, e5⟩ := idx_facts t
  refine ⟨t, flush2_2 t, ?_⟩
  rw [mem_blk]
  intro a
  match a with
  | ⟨0, _⟩ => show win2_2.index t 0 * 5000 ≤ (i 0).val ∧ (i 0).val < win2_2.index t 0 * 5000 + 5000
              rw [e4]; show (i 0).val / 5000 * 5000 ≤ (i 0).val ∧ (i 0).val < (i 0).val / 5000 * 5000 + 5000; omega
  | ⟨1, _⟩ => show win2_2.index t 1 * 128 ≤ (i 1).val ∧ (i 1).val < win2_2.index t 1 * 128 + 128
              rw [e5]; omega

/-- The output array after the region: the product matrix of the arrays the region finds. -/
theorem final (hpay : ∀ (x : Vec Ideal S5000x128 .f32) (w : Vec Ideal S128x128 .f32) (r : Fin 5000) (q : Fin 128),
      k2_pay1 x w (ix2 r q) = ∑ k : Fin 128, x (ix2 r k) * w (ix2 k q)) (c : Dev nD) : (dat2 V c).arrAt 2 cfg2.N = prod (V c main_v60) (V c main_arg6) :=
  (dat2 V c).arrAt_eq_of_cover 2 (prod (V c main_v60) (V c main_arg6)) (fun t _ => flushed_eq V hpay c t) cover

end Cert.KernelIdeal.Region2

end
-- ==== Proof.Region3.lean ====
/-
  What region 3 (the fused normalise-and-activate step, tiled by rows: ten blocks of 5000 rows, the four 1×128
  statistic and parameter rows whole at every point) leaves in its output array, as ONE function of the arrays the
  region finds: entry (p, q) is a fixed scalar function of A[p, q] and of the four rows' entries at column q.
-/
import proofs.«115092_j20366734917864_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The entrywise function of the array and of the four rows. -/
def rowwise (E : EReal → EReal → EReal → EReal → EReal → EReal) (A : S50000x128.Idx → EReal) (MU VAR G BE : S1x128.Idx → EReal) :
    S50000x128.Idx → EReal :=
  fun i => E (A i) (MU (ix2 0 (i 1))) (VAR (ix2 0 (i 1))) (G (ix2 0 (i 1))) (BE (ix2 0 (i 1)))

/-- The index maps over the grid: the row-block index of the input and of the output is the point's number, every
    other block index is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The input block at point `t` is rows 5000·t … of the array the region finds. -/
theorem xblk_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v103 : S50000x128.Idx → EReal) k := by
  obtain ⟨e0, e1, -⟩ := idx_facts t
  unfold iblk3
  rw [View.read_apply]
  show (V c main_v103 : S50000x128.Idx → EReal) _ = V c main_v103 k
  refine congrArg _ ?_
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Row window 1's block at every point is its whole 1×128 array. -/
theorem row1_apply (c : Dev nD) (t : Fin cfg3.N) (x : S1x128.Idx) :
    (iblk3 V c 1 t : Vec Ideal S1x128 .f32) x = (V c main_v107 : S1x128.Idx → EReal) x := by
  have e := idx_facts t
  unfold iblk3
  rw [View.read_apply]
  show (V c main_v107 : S1x128.Idx → EReal) _ = V c main_v107 x
  refine congrArg _ ?_
  funext a
  apply Fin.ext
  match a with
  | ⟨0, _⟩ => show win3_1.index t 0 * 1 + 1 * (x 0).val = (x 0).val; have := e.2.2.1; omega
  | ⟨1, _⟩ => show win3_1.index t 1 * 128 + 1 * (x 1).val = (x 1).val; have := e.2.2.2.1; omega

/-- Row window 2's block at every point is its whole 1×128 array. -/
theorem row2_apply (c : Dev nD) (t : Fin cfg3.N) (x : S1x128.Idx) :
    (iblk3 V c 2 t : Vec Ideal S1x128 .f32) x = (V c main_v114 : S1x128.Idx → EReal) x := by
  have e := idx_facts t
  unfold iblk3
  rw [View.read_apply]
  show (V c main_v114 : S1x128.Idx → EReal) _ = V c main_v114 x
  refine congrArg _ ?_
  funext a
  apply Fin.ext
  match a with
  | ⟨0, _⟩ => show win3_2.index t 0 * 1 + 1 * (x 0).val = (x 0).val; have := e.2.2.2.2.1; omega
  | ⟨1, _⟩ => show win3_2.index t 1 * 128 + 1 * (x 1).val = (x 1).val; have := e.2.2.2.2.2.1; omega

/-- Row window 3's block at every point is its whole 1×128 array. -/
theorem row3_apply (c : Dev nD) (t : Fin cfg3.N) (x : S1x128.Idx) :
    (iblk3 V c 3 t : Vec Ideal S1x128 .f32) x = (V c main_v115 : S1x128.Idx → EReal) x := by
  have e := idx_facts t
  unfold iblk3
  rw [View.read_apply]
  show (V c main_v115 : S1x128.Idx → EReal) _ = V c main_v115 x
  refine congrArg _ ?_
  funext a
  apply Fin.ext
  match a with
  | ⟨0, _⟩ => show win3_3.index t 0 * 1 + 1 * (x 0).val = (x 0).val; have := e.2.2.2.2.2.2.1; omega
  | ⟨1, _⟩ => show win3_3.index t 1 * 128 + 1 * (x 1).val = (x 1).val; have := e.2.2.2.2.2.2.2.1; omega

/-- Row window 4's block at every point is its whole 1×128 array. -/
theorem row4_apply (c : Dev nD) (t : Fin cfg3.N) (x : S1x128.Idx) :
    (iblk3 V c 4 t : Vec Ideal S1x128 .f32) x = (V c main_v116 : S1x128.Idx → EReal) x := by
  have e := idx_facts t
  unfold iblk3
  rw [View.read_apply]
  show (V c main_v116 : S1x128.Idx → EReal) _ = V c main_v116 x
  refine congrArg _ ?_
  funext a
  apply Fin.ext
  match a with
  | ⟨0, _⟩ => show win3_4.index t 0 * 1 + 1 * (x 0).val = (x 0).val; have := e.2.2.2.2.2.2.2.2.1; omega
  | ⟨1, _⟩ => show win3_4.index t 1 * 128 + 1 * (x 1).val = (x 1).val; have := e.2.2.2.2.2.2.2.2.2.1; omega

/-- What point `t` writes back is block `t` of the entrywise function. -/
theorem flushed_eq (E : EReal → EReal → EReal → EReal → EReal → EReal)
    (hpay : ∀ (x : Vec Ideal S5000x128 .f32) (mu var g be : Vec Ideal S1x128 .f32) (r : Fin 5000) (q : Fin 128),
      k3_pay1 x mu var g be (ix2 r q) = E (x (ix2 r q)) (mu (ix2 0 q)) (var (ix2 0 q)) (g (ix2 0 q)) (be (ix2 0 q)))
    (c : Dev nD) (t : Fin cfg3.N) :
    (dat3 V c).flushed 5 t = ((cfg3.win 5).blk t).view.read (Elt Ideal)
      (rowwise E (V c main_v103) (V c main_v107) (V c main_v114) (V c main_v115) (V c main_v116)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  have e := idx_facts t
  have e10 : win3_5.index t (0 : Fin 2) = t.val := e.2.2.2.2.2.2.2.2.2.2.1
  have e11 : win3_5.index t (1 : Fin 2) = 0 := e.2.2.2.2.2.2.2.2.2.2.2
  funext j
  obtain ⟨r, q, rfl⟩ : ∃ (r : Fin 5000) (q : Fin 128), j = ix2 r q := ⟨j 0, j 1, eq_ix2 j⟩
  refine (hpay _ _ _ _ _ r q).trans ?_
  show _ = rowwise E (V c main_v103) (V c main_v107) (V c main_v114) (V c main_v115) (V c main_v116) (((cfg3.win 5).blk t).view.emb (ix2 r q))
  unfold rowwise
  have hidx : (ix2 (0 : Fin 1) ((((cfg3.win 5).blk t).view.emb (ix2 r q)) 1) : S1x128.Idx) = ix2 0 q := by
    funext a
    apply Fin.ext
    match a with
    | ⟨0, _⟩ => rfl
    | ⟨1, _⟩ => show win3_5.index t 1 * 128 + 1 * q.val = q.val; rw [e11]; omega
  rw [hidx, xblk_apply V c t (ix2 r q) (((cfg3.win 5).blk t).view.emb (ix2 r q)) ?_ ?_, row1_apply V c t, row2_apply V c t,
    row3_apply V c t, row4_apply V c t]
  · show win3_5.index t 0 * 5000 + 1 * r.val = 5000 * t.val + r.val
    rw [e10]; omega
  · show win3_5.index t 1 * 128 + 1 * q.val = q.val
    rw [e11]; omega

/-- An index of the array is in point `t`'s block iff its row is in the block's rows. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v117).slice (win3_5.rect t)).set ↔ _
  rw [View.set_slice_whole, Rect.mem_set_unit]
  exact Iff.rfl

/-- The ten blocks cover the array: row p is in block p / 5000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have e := idx_facts t
  have e10 : win3_5.index t (0 : Fin 2) = t.val := e.2.2.2.2.2.2.2.2.2.2.1
  have e11 : win3_5.index t (1 : Fin 2) = 0 := e.2.2.2.2.2.2.2.2.2.2.2
  refine ⟨t, flush3_5 t, ?_⟩
  rw [mem_blk]
  intro a
  match a with
  | ⟨0, _⟩ => show win3_5.index t 0 * 5000 ≤ (i 0).val ∧ (i 0).val < win3_5.index t 0 * 5000 + 5000
              rw [e10]; show (i 0).val / 5000 * 5000 ≤ (i 0).val ∧ (i 0).val < (i 0).val / 5000 * 5000 + 5000; omega
  | ⟨1, _⟩ => show win3_5.index t 1 * 128 ≤ (i 1).val ∧ (i 1).val < win3_5.index t 1 * 128 + 128
              rw [e11]; omega

/-- The output array after the region: the entrywise function of the arrays the region finds. -/
theorem final (E : EReal → EReal → EReal → EReal → EReal → EReal)
    (hpay : ∀ (x : Vec Ideal S5000x128 .f32) (mu var g be : Vec Ideal S1x128 .f32) (r : Fin 5000) (q : Fin 128),
      k3_pay1 x mu var g be (ix2 r q) = E (x (ix2 r q)) (mu (ix2 0 q)) (var (ix2 0 q)) (g (ix2 0 q)) (be (ix2 0 q)))
    (c : Dev nD) :
    (dat3 V c).arrAt 5 cfg3.N = rowwise E (V c main_v103) (V c main_v107) (V c main_v114) (V c main_v115) (V c main_v116) :=
  (dat3 V c).arrAt_eq_of_cover 5 _ (fun t _ => flushed_eq V E hpay c t) cover

end Cert.KernelIdeal.Region3

end
-- ==== Proof.PointBn.lean ====
/-
  The batch-normalisation + ELU stage at one element.  For a value x, its column's mean mu and biased variance var,
  the scale g and the shift be, put  y = ((x − mu) · rsqrt(var + ε)) · g + be ; the stage yields  y  where  y > 0  and
  exp y − 1  elsewhere.  The kernel body computes select(y > 0, y, exp y − 1.0); the host program computes
  select(y > 0, y, 1.0 · expm1(select(y > 0, 0, y))).  Both are the one function `E` below of the five extended reals.
-/
import proofs.«115092_j20366734917864_1_alg».proof.Proof.Spec
import proofs.«115092_j20366734917864_1_alg».proof.Proof.Gen.KernelIdeal.Skeleton
import Idealize.ShloMosaic.Lib.ValueIdx
import Idealize.ShloMosaic.Lib.ValueLayout
import Idealize.ShloMosaic.PureOps.Ideal.Laws

noncomputable section

namespace Cert.Point

open Idealize.ShloMosaic Idealize.ShloMosaic.ValueIdx

/-- The normalised, scaled and shifted value: ((x − mu) · rsqrt(var + ε)) · g + be, ε the word 0x3727C5AC. -/
def Y (x mu var g be : EReal) : EReal :=
  (x - mu) * Ideal.rsqrt (var + Ideal.ofBits .f32 0x3727C5AC#32) * g + be

/-- ELU of the normalised value: y where y > 0 (compared with the zero word), exp y − 1 elsewhere. -/
def E (x mu var g be : EReal) : EReal :=
  Scalar.select (Ideal.cmp .ogt (Y x mu var g be) (Ideal.ofBits .f32 0x00000000#32)) (Y x mu var g be)
    (Ideal.exp (Y x mu var g be) - 1)

/-- The f32 word 0x3F800000 denotes 1. -/
theorem ofBits_one : Ideal.ofBits .f32 0x3F800000#32 = 1 := by
  simp [Ideal.ofBits, Ideal.ieee, -EReal.coe_mul]; norm_num

/-- A reciprocal square root of a vector, read at an index. -/
theorem rsqrt_apply {s : Shape} {φ : FTy} (a : FVec Ideal s φ) (i : s.Idx) : rsqrt a i = Ideal.rsqrt (a i) := rfl
/-- An exponential of a vector, read at an index. -/
theorem exp_apply {s : Shape} {φ : FTy} (a : FVec Ideal s φ) (i : s.Idx) : exp a i = Ideal.exp (a i) := rfl

/-- The body's arithmetic, from the five loaded vectors, at (r, q). -/
theorem k1_pay1_apply (x : Vec Ideal Cert.KernelIdeal.S5000x128 .f32) (mu var g be : Vec Ideal Cert.KernelIdeal.S1x128 .f32)
    (r : Fin 5000) (q : Fin 128) :
    Cert.KernelIdeal.Gen.k1_pay1 x mu var g be (ix2 r q)
      = E (x (ix2 r q)) (mu (ix2 0 q)) (var (ix2 0 q)) (g (ix2 0 q)) (be (ix2 0 q)) := by
  unfold Cert.KernelIdeal.Gen.k1_pay1
  simp only [shapeCast_self]
  simp only [select_apply, cmpf_apply, subf_apply, addf_apply, mulf_apply, broadcast_apply, exp_apply, rsqrt_apply,
    broadcastTo_1b_ab_apply, Ideal.ofBits_def, Ideal.cmpf_def, ofBits_one]
  rfl

/-- The second layer's body is the same arithmetic. -/
theorem k3_pay1_apply (x : Vec Ideal Cert.KernelIdeal.S5000x128 .f32) (mu var g be : Vec Ideal Cert.KernelIdeal.S1x128 .f32)
    (r : Fin 5000) (q : Fin 128) :
    Cert.KernelIdeal.Gen.k3_pay1 x mu var g be (ix2 r q)
      = E (x (ix2 r q)) (mu (ix2 0 q)) (var (ix2 0 q)) (g (ix2 0 q)) (be (ix2 0 q)) := by
  unfold Cert.KernelIdeal.Gen.k3_pay1
  simp only [shapeCast_self]
  simp only [select_apply, cmpf_apply, subf_apply, addf_apply, mulf_apply, broadcast_apply, exp_apply, rsqrt_apply,
    broadcastTo_1b_ab_apply, Ideal.ofBits_def, Ideal.cmpf_def, ofBits_one]
  rfl

/-! ## The host program's spelling -/

/-- A splat of a scalar constant reads the constant's value at every index. -/
theorem bcast_const_apply {t : Shape} (dims : Fin (⟨0, ![]⟩ : Shape).rank → Fin t.rank)
    (h : (⟨0, ![]⟩ : Shape).BroadcastsInDim t dims) (φ : FTy) (w : BitVec φ.bits) (j : t.Idx) :
    broadcastInDim t dims h (constant (F := Ideal) ⟨0, ![]⟩ φ w) j = Ideal.ofBits φ w := rfl

/-- A vector of 128 column values laid along the rows reads, at (p, q), its value at q. -/
theorem rows_apply [Cert.ReferenceIdeal.Facts] (v : Cert.Spec.Fl (F := Ideal) Cert.ReferenceIdeal.S128) (p : Fin 50000) (q : Fin 128) :
    Cert.Spec.rows v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- A host reciprocal square root of a vector, read at an index. -/
theorem host_rsqrt_apply {s : Shape} {φ : FTy} (a : FVec Ideal s φ) (i : s.Idx) : Host.rsqrt a i = Ideal.rsqrt (a i) := rfl
/-- A host exp(·) − 1 of a vector, read at an index. -/
theorem host_expm1_apply {s : Shape} {φ : FTy} (a : FVec Ideal s φ) (i : s.Idx) : Host.expm1 a i = Ideal.exp (a i) - 1 := rfl

/-- The two spellings of ELU agree: where y > z fails the inner select is y, and 1 · t = t. -/
theorem elu_point (y z z' : EReal) :
    Scalar.select (Ideal.cmp .ogt y z) y (1 * (Ideal.exp (Scalar.select (Ideal.cmp .ogt y z) z' y) - 1))
      = Scalar.select (Ideal.cmp .ogt y z) y (Ideal.exp y - 1) := by
  unfold Scalar.select
  by_cases h : Ideal.cmp .ogt y z = 1
  · rw [if_pos h, if_pos h]
  · rw [if_neg h, if_neg h, if_neg h, one_mul]

/-- The host program's normalisation and activation at (p, q). -/
theorem spec_bnelu_apply [Cert.ReferenceIdeal.Facts] (a : Cert.Spec.Fl (F := Ideal) Cert.ReferenceIdeal.S50000x128)
    (g be : Cert.Spec.Fl (F := Ideal) Cert.ReferenceIdeal.S128) (p : Fin 50000) (q : Fin 128) :
    Cert.Spec.elu (Cert.Spec.bn a g be) (ix2 p q)
      = E (a (ix2 p q)) (Cert.Spec.colMean a (ix1 q)) (Cert.Spec.colVar a (ix1 q)) (g (ix1 q)) (be (ix1 q)) := by
  unfold Cert.Spec.elu Cert.Spec.bn
  simp only [select_apply, cmpf_apply, subf_apply, addf_apply, mulf_apply, rows_apply, bcast_const_apply, id,
    host_rsqrt_apply, host_expm1_apply, Ideal.cmpf_def, ofBits_one]
  exact elu_point _ _ _

end Cert.Point

end
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.PointDot.lean ====
/-
  The feature transform at one entry.  The kernel body's product of a 5000 × 128 block of node features with the
  128 × 128 weights, and the host program's product of the whole 50000 × 128 array with the same weights, both read
  at (row, column): the sum over the 128 contracted features of the operands' products.
-/
import proofs.«115092_j20366734917864_1_alg».proof.Proof.LibHostDot
import proofs.«115092_j20366734917864_1_alg».proof.Proof.LibLayout
import proofs.«115092_j20366734917864_1_alg».proof.Proof.Spec
import proofs.«115092_j20366734917864_1_alg».proof.Proof.Gen.KernelIdeal.Skeleton

noncomputable section

namespace Cert.Point

open Idealize.ShloMosaic Idealize.ShloMosaic.ValueIdx

/-- The block product with the narrowing format changes removed (they are the identity on extended reals). -/
theorem blockDot_apply (x : FVec Ideal Cert.KernelIdeal.S5000x128 .f32) (w : FVec Ideal Cert.KernelIdeal.S128x128 .f32)
    (hb : FTy.bits .bf16 < FTy.bits .f32) (r : Fin 5000) (q : Fin 128) :
    matmul Cert.KernelIdeal.dot_S5000x128_S128x128_S5000x128_1_0_0_1_n_n none
        (truncf .bf16 x hb : FVec Ideal Cert.KernelIdeal.S5000x128 .bf16)
        (truncf .bf16 w hb : FVec Ideal Cert.KernelIdeal.S128x128 .bf16)
        (constant Cert.KernelIdeal.S5000x128 .f32 0x00000000#32) (ix2 r q)
      = ∑ k : Fin 128, x (ix2 r k) * w (ix2 k q) :=
  Cert.LibLayout.matmul_rows_cols_apply Cert.KernelIdeal.dot_S5000x128_S128x128_S5000x128_1_0_0_1_n_n rfl rfl rfl rfl
    (fun _ _ => rfl) (fun _ _ => rfl) none _ _ r q

/-- The first layer's body: entry (r, q) of the block product. -/
theorem k0_pay1_apply (x : Vec Ideal Cert.KernelIdeal.S5000x128 .f32) (w : Vec Ideal Cert.KernelIdeal.S128x128 .f32)
    (r : Fin 5000) (q : Fin 128) :
    Cert.KernelIdeal.Gen.k0_pay1 x w (ix2 r q) = ∑ k : Fin 128, x (ix2 r k) * w (ix2 k q) := by
  unfold Cert.KernelIdeal.Gen.k0_pay1
  exact blockDot_apply x w _ r q

/-- The second layer's body: the same product, its left operand first cast to its own shape. -/
theorem k2_pay1_apply (x : Vec Ideal Cert.KernelIdeal.S5000x128 .f32) (w : Vec Ideal Cert.KernelIdeal.S128x128 .f32)
    (r : Fin 5000) (q : Fin 128) :
    Cert.KernelIdeal.Gen.k2_pay1 x w (ix2 r q) = ∑ k : Fin 128, x (ix2 r k) * w (ix2 k q) := by
  unfold Cert.KernelIdeal.Gen.k2_pay1
  simp only [shapeCast_self]
  exact blockDot_apply x w _ r q

/-- The host program's product at (p, q). -/
theorem spec_dot_apply [Cert.ReferenceIdeal.Facts] (X : Cert.Spec.Fl (F := Ideal) Cert.ReferenceIdeal.S50000x128)
    (W : Cert.Spec.Fl (F := Ideal) Cert.ReferenceIdeal.S128x128) (p : Fin 50000) (q : Fin 128) :
    Host.dotGeneral (F := Ideal) (φ₁ := .f32) (φ₂ := .f32) Cert.ReferenceIdeal.dot_S50000x128_S128x128_S50000x128_1_0_0_1_n_n none X W (ix2 p q)
      = ∑ k : Fin 128, X (ix2 p k) * W (ix2 k q) :=
  Cert.LibHostDot.dotGeneral_rows_cols_apply Cert.ReferenceIdeal.dot_S50000x128_S128x128_S50000x128_1_0_0_1_n_n rfl rfl rfl rfl
    (fun _ _ => rfl) (fun _ _ => rfl) none X W p q

end Cert.Point

end
-- ==== Proof.LayerEq.lean ====
/-
  The four stages of the kernel's program as whole arrays.  Each matrix-product stage, entry by entry, is the host
  program's product of the features with the weights; each normalisation stage, entry by entry from the array and the
  host-computed mean, variance, scale and shift rows, is the specification's batch normalisation followed by ELU.
-/
import proofs.«115092_j20366734917864_1_alg».proof.Proof.Region0
import proofs.«115092_j20366734917864_1_alg».proof.Proof.Region1
import proofs.«115092_j20366734917864_1_alg».proof.Proof.Region2
import proofs.«115092_j20366734917864_1_alg».proof.Proof.Region3
import proofs.«115092_j20366734917864_1_alg».proof.Proof.PointBn
import proofs.«115092_j20366734917864_1_alg».proof.Proof.PointStats
import proofs.«115092_j20366734917864_1_alg».proof.Proof.PointDot

noncomputable section

namespace Cert.Point

open Idealize.ShloMosaic Idealize.ShloMosaic.ValueIdx

variable [Cert.KernelIdeal.Facts] [Cert.ReferenceIdeal.Facts]

/-- The first layer's product stage is the host program's product. -/
theorem prod0_eq_dot (X : Cert.Spec.Fl (F := Ideal) Cert.ReferenceIdeal.S50000x128)
    (W : Cert.Spec.Fl (F := Ideal) Cert.ReferenceIdeal.S128x128) :
    Cert.KernelIdeal.Region0.prod X W
      = Host.dotGeneral (F := Ideal) (φ₁ := .f32) (φ₂ := .f32)
          Cert.ReferenceIdeal.dot_S50000x128_S128x128_S50000x128_1_0_0_1_n_n none X W := by
  funext i
  obtain ⟨p, q, rfl⟩ : ∃ (p : Fin 50000) (q : Fin 128), i = ix2 p q := ⟨i 0, i 1, eq_ix2 i⟩
  exact (spec_dot_apply X W p q).symm

/-- The second layer's product stage is the host program's product. -/
theorem prod2_eq_dot (X : Cert.Spec.Fl (F := Ideal) Cert.ReferenceIdeal.S50000x128)
    (W : Cert.Spec.Fl (F := Ideal) Cert.ReferenceIdeal.S128x128) :
    Cert.KernelIdeal.Region2.prod X W
      = Host.dotGeneral (F := Ideal) (φ₁ := .f32) (φ₂ := .f32)
          Cert.ReferenceIdeal.dot_S50000x128_S128x128_S50000x128_1_0_0_1_n_n none X W := by
  funext i
  obtain ⟨p, q, rfl⟩ : ∃ (p : Fin 50000) (q : Fin 128), i = ix2 p q := ⟨i 0, i 1, eq_ix2 i⟩
  exact (spec_dot_apply X W p q).symm

/-- The first layer's normalisation stage, from the host-computed rows, is the specification's. -/
theorem rowwise1_eq (A : Cert.Spec.Fl (F := Ideal) Cert.ReferenceIdeal.S50000x128)
    (g be : Cert.Spec.Fl (F := Ideal) Cert.ReferenceIdeal.S128) :
    Cert.KernelIdeal.Region1.rowwise Cert.Point.E A (Cert.Point.kMean A) (Cert.Point.kVar A) (Cert.Point.kRow g)
        (Cert.Point.kRow be)
      = Cert.Spec.elu (Cert.Spec.bn A g be) := by
  funext i
  obtain ⟨p, q, rfl⟩ : ∃ (p : Fin 50000) (q : Fin 128), i = ix2 p q := ⟨i 0, i 1, eq_ix2 i⟩
  show E (A (ix2 p q)) (kMean (F := Ideal) A (ix2 0 q)) (kVar (F := Ideal) A (ix2 0 q)) (kRow (F := Ideal) g (ix2 0 q))
      (kRow (F := Ideal) be (ix2 0 q)) = _
  rw [kMean_apply, kVar_apply, kRow_apply, kRow_apply]
  exact (spec_bnelu_apply A g be p q).symm

/-- The second layer's normalisation stage, from the host-computed rows, is the specification's. -/
theorem rowwise3_eq (A : Cert.Spec.Fl (F := Ideal) Cert.ReferenceIdeal.S50000x128)
    (g be : Cert.Spec.Fl (F := Ideal) Cert.ReferenceIdeal.S128) :
    Cert.KernelIdeal.Region3.rowwise Cert.Point.E A (Cert.Point.kMean A) (Cert.Point.kVar A) (Cert.Point.kRow g)
        (Cert.Point.kRow be)
      = Cert.Spec.elu (Cert.Spec.bn A g be) := by
  funext i
  obtain ⟨p, q, rfl⟩ : ∃ (p : Fin 50000) (q : Fin 128), i = ix2 p q := ⟨i 0, i 1, eq_ix2 i⟩
  show E (A (ix2 p q)) (kMean (F := Ideal) A (ix2 0 q)) (kVar (F := Ideal) A (ix2 0 q)) (kRow (F := Ideal) g (ix2 0 q))
      (kRow (F := Ideal) be (ix2 0 q)) = _
  rw [kMean_apply, kVar_apply, kRow_apply, kRow_apply]
  exact (spec_bnelu_apply A g be p q).symm

end Cert.Point

end
-- ==== Proof.KerValue.lean ====
/-
  The idealized kernel program's result is the specification's two-layer network of the argument arrays.
  Layer by layer: the product region leaves the matrix product, which is the host's dot product entry by entry; the
  host stretch after it is the specification's aggregation; the normalising region leaves, entry by entry, the ELU
  of the normalised, scaled and shifted entry, computed from the mean and variance rows the host prepared, which
  are the specification's column statistics.
-/
import proofs.«115092_j20366734917864_1_alg».proof.Proof.KerRun
import proofs.«115092_j20366734917864_1_alg».proof.Proof.KerHost1
import proofs.«115092_j20366734917864_1_alg».proof.Proof.KerHost2
import proofs.«115092_j20366734917864_1_alg».proof.Proof.KerHost3
import proofs.«115092_j20366734917864_1_alg».proof.Proof.LayerEq

set_option maxRecDepth 16384

noncomputable section

namespace Cert.KernelIdeal.KerValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer's output array, at the exit of the first normalising region. -/
theorem layer1 (c : Dev nD) :
    W6 m ρ c (Proc.devRef .tc main_v60)
      = Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  have h30 : W4 m ρ c (Proc.devRef .tc main_v30)
      = Host.dotGeneral (F := Ideal) (φ₁ := .f32) (φ₂ := .f32) Cert.ReferenceIdeal.dot_S50000x128_S128x128_S50000x128_1_0_0_1_n_n none (m ((c : Thread nD τ).loc main_arg0)) (m ((c : Thread nD τ).loc main_arg2)) := by
    refine ((W4_arr m ρ c 2).trans (Region0.final (V3 m ρ) Cert.Point.k0_pay1_apply c)).trans ?_
    show Region0.prod (W3 m ρ c (Proc.devRef .tc main_arg0)) (W3 m ρ c (Proc.devRef .tc main_arg2)) = _
    rw [Host1.W3_arg0, Host1.W3_arg2]
    exact Cert.Point.prod0_eq_dot _ _
  have h46 := Host1.W5_v46 m ρ c
  rw [h30] at h46
  refine ((W6_arr m ρ c 5).trans (Region1.final (V5 m ρ) Cert.Point.E Cert.Point.k1_pay1_apply c)).trans ?_
  show Region1.rowwise Cert.Point.E (W5 m ρ c (Proc.devRef .tc main_v46)) (W5 m ρ c (Proc.devRef .tc main_v50))
    (W5 m ρ c (Proc.devRef .tc main_v57)) (W5 m ρ c (Proc.devRef .tc main_v58)) (W5 m ρ c (Proc.devRef .tc main_v59)) = _
  rw [Host1.W5_v50, Host1.W5_v57, Host1.W5_v58, Host1.W5_v59, h46]
  exact Cert.Point.rowwise1_eq _ _ _

/-- The result array, at the exit of the second normalising region. -/
theorem result (c : Dev nD) :
    W12 m ρ c (Proc.devRef .tc main_v117)
      = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h87 : W10 m ρ c (Proc.devRef .tc main_v87)
      = Host.dotGeneral (F := Ideal) (φ₁ := .f32) (φ₂ := .f32) Cert.ReferenceIdeal.dot_S50000x128_S128x128_S50000x128_1_0_0_1_n_n none
          (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) := by
    refine ((W10_arr m ρ c 2).trans (Region2.final (V9 m ρ) Cert.Point.k2_pay1_apply c)).trans ?_
    show Region2.prod (W9 m ρ c (Proc.devRef .tc main_v60)) (W9 m ρ c (Proc.devRef .tc main_arg6)) = _
    rw [Host2.W9_v60, Host2.W9_arg6, layer1]
    exact Cert.Point.prod2_eq_dot _ _
  have h103 := Host2.W11_v103 m ρ c
  rw [h87] at h103
  refine ((W12_arr m ρ c 5).trans (Region3.final (V11 m ρ) Cert.Point.E Cert.Point.k3_pay1_apply c)).trans ?_
  show Region3.rowwise Cert.Point.E (W11 m ρ c (Proc.devRef .tc main_v103)) (W11 m ρ c (Proc.devRef .tc main_v107))
    (W11 m ρ c (Proc.devRef .tc main_v114)) (W11 m ρ c (Proc.devRef .tc main_v115)) (W11 m ρ c (Proc.devRef .tc main_v116)) = _
  rw [Host3.W11_v107, Host3.W11_v114, Host3.W11_v115, Host3.W11_v116, h103]
  exact Cert.Point.rowwise3_eq _ _ _

/-- Every weakly fair execution of the idealized kernel program terminates with its result at the network of the
    launch contents of the arguments, the arguments unchanged. -/
theorem run : θ_run defs (onTc (τ := τ) (main (F := Ideal))) ⟨m, fun _ => 0, ρ⟩ (fun r => ∀ c : Dev nD,
      r.2.mem ((c.tc : Thread nD τ).loc main_v117)
        = Cert.Spec.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (KerRun.run m ρ)

end Cert.KernelIdeal.KerValue

end
-- ==== Proof.RefOps.lean ====
/-
  The reference program as ONE list of host operations: the three windows of its main function laid end to end,
  each call of an outlined function (the select behind jnp.where; ELU with its two inner selects) replaced by the
  callee's own operations over that call's buffers.
-/
import proofs.«115092_j20366734917864_1_alg».proof.Proof.Gen.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 206 operations, in program order. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_v4 (iotaInDim S50000 32 0),
    StableHlo.binary main_v1 main_v4 main_v5 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_v3 main_v4 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    TRef.unary (.of main_cst_2) main_call0.v0 id,
    TRef.unary main_call0.v0 main_call0.v1 (broadcastInDim S50000 ![] bcast_S_S50000),
    TRef.ternary (.of main_v12) (.of main_v13) main_call0.v1 main_call0.v2 select,
    StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v5 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v5 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v5 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)),
    StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S650000 ![] bcast_S_S650000 : (⟨S_, .i32⟩ : BufTy).Contents (Elt F) → (⟨S650000, .i32⟩ : BufTy).Contents (Elt F)),
    StableHlo.binary main_v5 main_v31 main_v32 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v33 (broadcastInDim S650000 ![] bcast_S_S650000 : (⟨S_, .i32⟩ : BufTy).Contents (Elt F) → (⟨S650000, .i32⟩ : BufTy).Contents (Elt F)),
    StableHlo.binary main_v5 main_v33 main_v34 (addi : (⟨S650000, .i32⟩ : BufTy).Contents (Elt F) → (⟨S650000, .i32⟩ : BufTy).Contents (Elt F) → (⟨S650000, .i32⟩ : BufTy).Contents (Elt F)),
    StableHlo.ternary main_v32 main_v34 main_v5 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v35 main_v36 (broadcastInDim S650000x1 ![0] bcast_S650000_S650000x1_0 : (⟨S650000, .i32⟩ : BufTy).Contents (Elt F) → (⟨S650000x1, .i32⟩ : BufTy).Contents (Elt F)),
    StableHlo.binary main_v30 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v38 (broadcastInDim S650000x1 ![0] bcast_S650000_S650000x1_0 : (⟨S650000, .f32⟩ : BufTy).Contents (Elt F) → (⟨S650000x1, .f32⟩ : BufTy).Contents (Elt F)),
    StableHlo.unary main_v38 main_v39 (broadcastInDim S650000x128 ![0, 1] bcast_S650000x1_S650000x128_0_1 : (⟨S650000x1, .f32⟩ : BufTy).Contents (Elt F) → (⟨S650000x128, .f32⟩ : BufTy).Contents (Elt F)),
    StableHlo.binary main_v37 main_v39 main_v40 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S650000x1 ![0] bcast_S650000_S650000x1_0 : (⟨S650000, .i32⟩ : BufTy).Contents (Elt F) → (⟨S650000x1, .i32⟩ : BufTy).Contents (Elt F)),
    StableHlo.ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v46 main_cst_9 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v51 main_v52 (subf : (⟨S50000x128, .f32⟩ : BufTy).Contents (Elt F) → (⟨S50000x128, .f32⟩ : BufTy).Contents (Elt F) → (⟨S50000x128, .f32⟩ : BufTy).Contents (Elt F)),
    StableHlo.binary main_v52 main_v52 main_v53 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v53 main_cst_11 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.unary main_v49 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v60 (broadcastInDim S128 ![] bcast_S_S128 : (⟨S_, .f32⟩ : BufTy).Contents (Elt F) → (⟨S128, .f32⟩ : BufTy).Contents (Elt F)),
    StableHlo.binary main_v56 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.rsqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg4 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg5 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v71) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v71) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v71) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v71) main_call1.v7 main_call1.call1.v0 select,
    StableHlo.nullary main_v73 (iotaInDim S50000 32 0),
    StableHlo.binary main_v1 main_v73 main_v74 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_v3 main_v73 main_v75 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst_14 (constant S_ .f32 0x3F800000#32),
    StableHlo.unary main_cst_14 main_v76 (broadcastInDim S650000 ![] bcast_S_S650000 : (⟨S_, .f32⟩ : BufTy).Contents (Elt F) → (⟨S650000, .f32⟩ : BufTy).Contents (Elt F)),
    StableHlo.nullary main_cst_15 (constant S_ .f32 0x00000000#32),
    StableHlo.unary main_cst_15 main_v77 (broadcastInDim S50000 ![] bcast_S_S50000 : (⟨S_, .f32⟩ : BufTy).Contents (Elt F) → (⟨S50000, .f32⟩ : BufTy).Contents (Elt F)),
    StableHlo.unary main_v75 main_v78 (broadcastInDim S650000x1 ![0] bcast_S650000_S650000x1_0 : (⟨S650000, .i32⟩ : BufTy).Contents (Elt F) → (⟨S650000x1, .i32⟩ : BufTy).Contents (Elt F)),
    StableHlo.ternary main_v77 main_v78 main_v76 main_v79 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_16 (constant S_ .f32 0x00000000#32),
    StableHlo.unary main_cst_16 main_v80 (broadcastInDim S50000 ![] bcast_S_S50000 : (⟨S_, .f32⟩ : BufTy).Contents (Elt F) → (⟨S50000, .f32⟩ : BufTy).Contents (Elt F)),
    StableHlo.binary main_v79 main_v80 main_v81 (cmpf .ogt : (⟨S50000, .f32⟩ : BufTy).Contents (Elt F) → (⟨S50000, .f32⟩ : BufTy).Contents (Elt F) → (⟨S50000, .i1⟩ : BufTy).Contents (Elt F)),
    StableHlo.unary main_v79 main_v82 (Host.rsqrt : (⟨S50000, .f32⟩ : BufTy).Contents (Elt F) → (⟨S50000, .f32⟩ : BufTy).Contents (Elt F)),
    StableHlo.nullary main_cst_17 (constant S_ .f32 0x00000000#32),
    TRef.unary (.of main_cst_17) main_call2.v0 id,
    TRef.unary main_call2.v0 main_call2.v1 (broadcastInDim S50000 ![] bcast_S_S50000),
    TRef.ternary (.of main_v81) (.of main_v82) main_call2.v1 main_call2.v2 select,
    StableHlo.nullary main_c_18 (constantI S_ 32 0#32),
    StableHlo.unary main_c_18 main_v84 (broadcastInDim S650000 ![] bcast_S_S650000 : (⟨S_, .i32⟩ : BufTy).Contents (Elt F) → (⟨S650000, .i32⟩ : BufTy).Contents (Elt F)),
    StableHlo.binary main_v74 main_v84 main_v85 (cmpi .slt : (⟨S650000, .i32⟩ : BufTy).Contents (Elt F) → (⟨S650000, .i32⟩ : BufTy).Contents (Elt F) → (⟨S650000, .i1⟩ : BufTy).Contents (Elt F)),
    StableHlo.nullary main_c_19 (constantI S_ 32 50000#32),
    StableHlo.unary main_c_19 main_v86 (broadcastInDim S650000 ![] bcast_S_S650000 : (⟨S_, .i32⟩ : BufTy).Contents (Elt F) → (⟨S650000, .i32⟩ : BufTy).Contents (Elt F)),
    StableHlo.binary main_v74 main_v86 main_v87 (addi : (⟨S650000, .i32⟩ : BufTy).Contents (Elt F) → (⟨S650000, .i32⟩ : BufTy).Contents (Elt F) → (⟨S650000, .i32⟩ : BufTy).Contents (Elt F)),
    StableHlo.ternary main_v85 main_v87 main_v74 main_v88 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v88 main_v89 (broadcastInDim S650000x1 ![0] bcast_S650000_S650000x1_0 : (⟨S650000, .i32⟩ : BufTy).Contents (Elt F) → (⟨S650000x1, .i32⟩ : BufTy).Contents (Elt F)),
    StableHlo.binary main_v83 main_v89 main_v90 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_20 (constantI S_ 32 0#32),
    StableHlo.unary main_c_20 main_v91 (broadcastInDim S650000 ![] bcast_S_S650000 : (⟨S_, .i32⟩ : BufTy).Contents (Elt F) → (⟨S650000, .i32⟩ : BufTy).Contents (Elt F)),
    StableHlo.binary main_v75 main_v91 main_v92 (cmpi .slt : (⟨S650000, .i32⟩ : BufTy).Contents (Elt F) → (⟨S650000, .i32⟩ : BufTy).Contents (Elt F) → (⟨S650000, .i1⟩ : BufTy).Contents (Elt F)),
    StableHlo.nullary main_c_21 (constantI S_ 32 50000#32),
    StableHlo.unary main_c_21 main_v93 (broadcastInDim S650000 ![] bcast_S_S650000 : (⟨S_, .i32⟩ : BufTy).Contents (Elt F) → (⟨S650000, .i32⟩ : BufTy).Contents (Elt F)),
    StableHlo.binary main_v75 main_v93 main_v94 (addi : (⟨S650000, .i32⟩ : BufTy).Contents (Elt F) → (⟨S650000, .i32⟩ : BufTy).Contents (Elt F) → (⟨S650000, .i32⟩ : BufTy).Contents (Elt F)),
    StableHlo.ternary main_v92 main_v94 main_v75 main_v95 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v95 main_v96 (broadcastInDim S650000x1 ![0] bcast_S650000_S650000x1_0 : (⟨S650000, .i32⟩ : BufTy).Contents (Elt F) → (⟨S650000x1, .i32⟩ : BufTy).Contents (Elt F)),
    StableHlo.binary main_v83 main_v96 main_v97 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v90 main_v97 main_v98 (mulf : (⟨S650000, .f32⟩ : BufTy).Contents (Elt F) → (⟨S650000, .f32⟩ : BufTy).Contents (Elt F) → (⟨S650000, .f32⟩ : BufTy).Contents (Elt F)),
    StableHlo.binary main_v72 main_arg6 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_22 (constantI S_ 32 0#32),
    StableHlo.unary main_c_22 main_v100 (broadcastInDim S650000 ![] bcast_S_S650000 : (⟨S_, .i32⟩ : BufTy).Contents (Elt F) → (⟨S650000, .i32⟩ : BufTy).Contents (Elt F)),
    StableHlo.binary main_v74 main_v100 main_v101 (cmpi .slt : (⟨S650000, .i32⟩ : BufTy).Contents (Elt F) → (⟨S650000, .i32⟩ : BufTy).Contents (Elt F) → (⟨S650000, .i1⟩ : BufTy).Contents (Elt F)),
    StableHlo.nullary main_c_23 (constantI S_ 32 50000#32),
    StableHlo.unary main_c_23 main_v102 (broadcastInDim S650000 ![] bcast_S_S650000 : (⟨S_, .i32⟩ : BufTy).Contents (Elt F) → (⟨S650000, .i32⟩ : BufTy).Contents (Elt F)),
    StableHlo.binary main_v74 main_v102 main_v103 (addi : (⟨S650000, .i32⟩ : BufTy).Contents (Elt F) → (⟨S650000, .i32⟩ : BufTy).Contents (Elt F) → (⟨S650000, .i32⟩ : BufTy).Contents (Elt F)),
    StableHlo.ternary main_v101 main_v103 main_v74 main_v104 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v104 main_v105 (broadcastInDim S650000x1 ![0] bcast_S650000_S650000x1_0 : (⟨S650000, .i32⟩ : BufTy).Contents (Elt F) → (⟨S650000x1, .i32⟩ : BufTy).Contents (Elt F)),
    StableHlo.binary main_v99 main_v105 main_v106 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v98 main_v107 (broadcastInDim S650000x1 ![0] bcast_S650000_S650000x1_0 : (⟨S650000, .f32⟩ : BufTy).Contents (Elt F) → (⟨S650000x1, .f32⟩ : BufTy).Contents (Elt F)),
    StableHlo.unary main_v107 main_v108 (broadcastInDim S650000x128 ![0, 1] bcast_S650000x1_S650000x128_0_1 : (⟨S650000x1, .f32⟩ : BufTy).Contents (Elt F) → (⟨S650000x128, .f32⟩ : BufTy).Contents (Elt F)),
    StableHlo.binary main_v106 main_v108 main_v109 (mulf : (⟨S650000x128, .f32⟩ : BufTy).Contents (Elt F) → (⟨S650000x128, .f32⟩ : BufTy).Contents (Elt F) → (⟨S650000x128, .f32⟩ : BufTy).Contents (Elt F)),
    StableHlo.nullary main_cst_24 (constant S_ .f32 0x00000000#32),
    StableHlo.unary main_cst_24 main_v110 (broadcastInDim S50000x128 ![] bcast_S_S50000x128 : (⟨S_, .f32⟩ : BufTy).Contents (Elt F) → (⟨S50000x128, .f32⟩ : BufTy).Contents (Elt F)),
    StableHlo.unary main_v75 main_v111 (broadcastInDim S650000x1 ![0] bcast_S650000_S650000x1_0 : (⟨S650000, .i32⟩ : BufTy).Contents (Elt F) → (⟨S650000x1, .i32⟩ : BufTy).Contents (Elt F)),
    StableHlo.ternary main_v110 main_v111 main_v109 main_v112 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg7 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v114 main_v115 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x00000000#32),
    StableHlo.binary main_v115 main_cst_25 main_v116 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_26 (constant S_ .f32 0x47435000#32),
    StableHlo.unary main_cst_26 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v120 main_v121 (subf : (⟨S50000x128, .f32⟩ : BufTy).Contents (Elt F) → (⟨S50000x128, .f32⟩ : BufTy).Contents (Elt F) → (⟨S50000x128, .f32⟩ : BufTy).Contents (Elt F)),
    StableHlo.binary main_v121 main_v121 main_v122 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x00000000#32),
    StableHlo.binary main_v122 main_cst_27 main_v123 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v124 (broadcastInDim S128 ![] bcast_S_S128 : (⟨S_, .f32⟩ : BufTy).Contents (Elt F) → (⟨S128, .f32⟩ : BufTy).Contents (Elt F)),
    StableHlo.binary main_v123 main_v124 main_v125 (Host.divf : (⟨S128, .f32⟩ : BufTy).Contents (Elt F) → (⟨S128, .f32⟩ : BufTy).Contents (Elt F) → (⟨S128, .f32⟩ : BufTy).Contents (Elt F)),
    StableHlo.unary main_v118 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v127 main_v128 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v129 (broadcastInDim S128 ![] bcast_S_S128 : (⟨S_, .f32⟩ : BufTy).Contents (Elt F) → (⟨S128, .f32⟩ : BufTy).Contents (Elt F)),
    StableHlo.binary main_v125 main_v129 main_v130 (addf : (⟨S128, .f32⟩ : BufTy).Contents (Elt F) → (⟨S128, .f32⟩ : BufTy).Contents (Elt F) → (⟨S128, .f32⟩ : BufTy).Contents (Elt F)),
    StableHlo.unary main_v130 main_v131 (Host.rsqrt : (⟨S128, .f32⟩ : BufTy).Contents (Elt F) → (⟨S128, .f32⟩ : BufTy).Contents (Elt F)),
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_arg8 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_arg9 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v140) main_call3.v0 main_call3.v1 (cmpf .ogt),
    TRef.nullary main_call3.cst_0 (constant S_ .f32 0x00000000#32),
    TRef.unary main_call3.cst_0 main_call3.v2 (broadcastInDim S50000x128 ![] bcast_S_S50000x128),
    TRef.binary (.of main_v140) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x128 ![] bcast_S_S50000x128),
    TRef.ternary main_call3.v3 main_call3.call0.v1 (.of main_v140) main_call3.call0.v2 select,
    TRef.unary main_call3.call0.v2 main_call3.v5 Host.expm1,
    TRef.nullary main_call3.cst_2 (constant S_ .f32 0x3F800000#32),
    TRef.unary main_call3.cst_2 main_call3.v6 (broadcastInDim S50000x128 ![] bcast_S_S50000x128),
    TRef.binary main_call3.v6 main_call3.v5 main_call3.v7 mulf,
    TRef.ternary main_call3.v1 (.of main_v140) main_call3.v7 main_call3.call1.v0 select ]

/-- Each operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.RefRun

end
-- ==== Proof.RefRun.lean ====
/-
  The reference program IS its straight line of host operations, so every weakly fair execution terminates with
  every buffer at the fold of the operations' results over the launch contents.
-/
import proofs.«115092_j20366734917864_1_alg».proof.Proof.RefOps

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 8192 in
set_option maxHeartbeats 4000000 in
/-- The main function is that line: the three windows and the outlined callees unfolded, sequencing reassociated. -/
theorem main_eq (c : Dev nD) : main (F := F) c = seq ops := by
  simp only [main, main_part0, main_part1, main_part2, fn_where.body, fn_where_0.body, fn_where_1.body, fn_elu.body,
    seq, bind_assoc, pure_bind]

/-- The signature scopes no buffer and no semaphore to a region. -/
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates, every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefValue.lean ====
/-
  The reference program's result, read off its straight line of operations, is the two-layer network of the
  specification applied to the ten argument arrays; the arguments themselves are never written.
-/
import proofs.«115092_j20366734917864_1_alg».proof.Proof.RefRun
import proofs.«115092_j20366734917864_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo
open Cert.RefRun

variable {F : FTy → Type} [FloatOps F]

attribute [local irreducible] Host.reduceAdd Host.gather Host.scatterAdd in
set_option maxRecDepth 65536 in
set_option maxHeartbeats 4000000 in
/-- The fold at the result buffer is the network of the argument buffers' contents. -/
theorem out_eq (V : Valuation τ sig (Elt F)) :
    after ops V (main_v141 : DevRef τ sig)
      = Cert.Spec.net (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp

/-- Every weakly fair execution of the reference terminates with its result at the network of the launch contents of
    the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141)
        = Cert.Spec.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v141).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.RefValue

end
-- ==== Proof.lean ====
/-
  A two-layer graph convolution network (50000 nodes, 128 features, 600000 edges plus one self-loop per node): each
  layer multiplies the node features by a weight matrix, sums the normalised rows of the product over the entries
  that point at each node, adds a bias, normalises every feature column over the nodes and applies ELU.  The kernel
  program computes the two matrix products and the two normalise-and-activate steps in row-tiled regions and the
  gather / scatter sums on the host; the reference computes everything on the host.  On the extended reals both
  results are the same composition of the same operations: the tiled product is the host's dot product entry by
  entry (a sum over the 128 contracted features, the roundings to a narrower format being the identity), and the
  fused step is the reference's normalisation followed by ELU entry by entry, where exp(y) − 1 is expm1(y), the
  factor 1 is the unit of the product, and the inner select of jax.nn.elu returns y exactly where the outer one
  reads it.  No law used needs finiteness, so the precondition is never opened.
-/
import proofs.«115092_j20366734917864_1_alg».proof.Defs
import proofs.«115092_j20366734917864_1_alg».proof.Proof.Gen.Kernel
import proofs.«115092_j20366734917864_1_alg».proof.Proof.Gen.Kernel.Frame
import proofs.«115092_j20366734917864_1_alg».proof.Proof.Gen.KernelIdeal
import proofs.«115092_j20366734917864_1_alg».proof.Proof.Gen.KernelIdeal.Frame
import proofs.«115092_j20366734917864_1_alg».proof.Proof.Gen.ReferenceIdeal
import proofs.«115092_j20366734917864_1_alg».proof.Proof.Gen.Pre_finite_inputs
import proofs.«115092_j20366734917864_1_alg».proof.Proof.KerValue
import proofs.«115092_j20366734917864_1_alg».proof.Proof.RefValue

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.RefValue.run (F := Ideal) m ρ)

/-- The idealization rewrote nothing. -/
theorem preserves : Cert.preserves_Kernel_KernelIdeal := trivial

/-- Both idealized programs end with the two-layer network of the (agreeing) argument arrays. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.RefValue.run (F := Ideal) m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
